-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x2 .f32) (main_arg5 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S10000x128 : Shape := ⟨2, ![10000, 128]⟩
abbrev S100000x2 : Shape := ⟨2, ![100000, 2]⟩
abbrev S5000x2 : Shape := ⟨2, ![5000, 2]⟩
abbrev S1700000x2 : Shape := ⟨2, ![1700000, 2]⟩
abbrev S1x2 : Shape := ⟨2, ![1, 2]⟩
abbrev S2000x2 : Shape := ⟨2, ![2000, 2]⟩
abbrev S2000 : Shape := ⟨1, ![2000]⟩
abbrev S2000x1 : Shape := ⟨2, ![2000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x2, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x2, .f32⟩
  | .hbm, ⟨78, _⟩ => ⟨S1700000x1, .f32⟩
  | .hbm, ⟨79, _⟩ => ⟨S1700000x2, .f32⟩
  | .hbm, ⟨80, _⟩ => ⟨S1700000x2, .f32⟩
  | .hbm, ⟨81, _⟩ => ⟨S_, .f32⟩
  | .hbm, ⟨82, _⟩ => ⟨S100000x2, .f32⟩
  | .hbm, ⟨83, _⟩ => ⟨S1700000x1, .i32⟩
  | .hbm, ⟨84, _⟩ => ⟨S100000x2, .f32⟩
  | .hbm, ⟨85, _⟩ => ⟨S1x2, .f32⟩
  | .hbm, ⟨86, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S5000x128, .f32⟩
  | .local _ .vmem, ⟨11, _⟩ => ⟨S5000x128, .f32⟩
  | .local _ .vmem, ⟨12, _⟩ => ⟨S128x2, .f32⟩
  | .local _ .vmem, ⟨13, _⟩ => ⟨S5000x2, .f32⟩
  | .local _ .vmem, ⟨14, _⟩ => ⟨S5000x2, .f32⟩
  | .local _ .vmem, ⟨15, _⟩ => ⟨S2000x2, .f32⟩
  | .local _ .vmem, ⟨16, _⟩ => ⟨S2000x2, .f32⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S5000x128_S5000x128 : S5000x128.ShapeCasts S5000x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  shapeCasts_S2_S1x2 : S2.ShapeCasts S1x2
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x2_S5000x2_1_0_0_1_n_n_wf : DotDims.WF S5000x128 S128x2 S5000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x2.size a ≤ S100000x2.size a
  hwx3_0 : ∀ i : grid3.Coords, EltTy.bits .f32 = 32 ∨ (Rect.block (s := S100000x2) S2000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x2.size a ≤ S100000x2.size a
  hwx3_2 : ∀ i : grid3.Coords, EltTy.bits .f32 = 32 ∨ (Rect.block (s := S100000x2) S2000x2.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x2 : Shape := ⟨2, ![100000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x2, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x2, .f32⟩
  | .hbm, ⟨82, _⟩ => ⟨S1700000x1, .f32⟩
  | .hbm, ⟨83, _⟩ => ⟨S1700000x2, .f32⟩
  | .hbm, ⟨84, _⟩ => ⟨S1700000x2, .f32⟩
  | .hbm, ⟨85, _⟩ => ⟨S_, .f32⟩
  | .hbm, ⟨86, _⟩ => ⟨S100000x2, .f32⟩
  | .hbm, ⟨87, _⟩ => ⟨S1700000x1, .i32⟩
  | .hbm, ⟨88, _⟩ => ⟨S100000x2, .f32⟩
  | .hbm, ⟨89, _⟩ => ⟨S1x2, .f32⟩
  | .hbm, ⟨90, _⟩ => ⟨S100000x2, .f32⟩
  | .hbm, ⟨91, _⟩ => ⟨S100000x2, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x2, .f32⟩
  | .hbm, ⟨99, _⟩ => ⟨S100000x2, .f32⟩
  | .hbm, ⟨100, _⟩ => ⟨S100000x2, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x2, .f32⟩
  | .hbm, ⟨105, _⟩ => ⟨S100000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KRun.lean ====
/-
  The idealized kernel's run with its result named.

  Every weakly fair execution of the kernel's @main from any memory with zero counters terminates without a fault, and in
  the final state every buffer the thread holds is at the contents of the last segment boundary: the fold of @main's
  stretches of host operations and of its four pipelined regions over the launch memory. Read at the result buffer this
  names the result (the array region 3's write-backs leave); read at an argument it gives the argument back, since no host
  operation and no region writes one.
-/
import proofs.«143986_j59459527246262_1_alg».proof.Proof.Gen.KernelIdeal.Frame

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the kernel's @main, at any float instance: it terminates, the result buffer ends at the last boundary's
    contents there, and the six argument arrays end as launched. -/
theorem run_named : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.Bridge

end
-- ==== Proof.KHost.lean ====
import proofs.«143986_j59459527246262_1_alg».proof.Proof.Gen.KernelIdeal.Frame
import proofs.«143986_j59459527246262_1_alg».proof.Proof.RefRead
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.TcCoe Idealize.SL.Sem
open Cert.KernelIdeal Cert.KernelIdeal.Gen
open Cert.ReferenceIdeal.ReadP

variable {F : FTy → Type} [FloatOps F] (W : Valuation τ sig (Elt F))

/-! ## The stretch before the first matmul, cut at its two concatenations

The edge list `x1 : 2 × 1600000` is split into its two rows; each row is extended by the 100000 self-loops
`0, 1, …, 99999` (a concatenation of the row with an iota), giving the source and the target of 1700000 edges. A
concatenation takes its operands as a list of (shape, array) pairs, so each one is read from a valuation that
already holds its two operands: the 21 operations are read as three consecutive pieces, the second and the third
beginning at a concatenation. -/

/-- The iota of self-loops and the first row of the edge list as a vector. -/
abbrev opsA1 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000 ]

/-- The sources (first row, then the self-loops), and the second row of the edge list as a vector. -/
abbrev opsA2 : List (HloOp τ sig (Elt F)) :=
  [ StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000 ]

/-- The targets (second row, then the self-loops), the degree of every node (a scatter-add of ones over the targets
    into zeros), and of the degree: whether it is positive, and the inverse square root of its maximum with one. -/
abbrev opsA3 : List (HloOp τ sig (Elt F)) :=
  [ StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32) ]

theorem hostOps0_cut : (hostOps0 : List (HloOp τ sig (Elt F))) = opsA1 ++ (opsA2 ++ opsA3) := rfl

/-- The 21 operations in a row are the three pieces in a row. -/
theorem after_hostOps0 :
    StableHlo.after hostOps0 W = StableHlo.after opsA3 (StableHlo.after opsA2 (StableHlo.after opsA1 W)) :=
  (congrArg (fun l => StableHlo.after l W) hostOps0_cut).trans
    ((StableHlo.after_append _ _ W).trans (StableHlo.after_append _ _ _))

/-! ### First piece -/

theorem hA1_v0 : StableHlo.after opsA1 W (Proc.devRef .tc main_v0) = val_main_v0 (F := F) := by
  after_results_simp <;> rfl
theorem hA1_v2 : StableHlo.after opsA1 W (Proc.devRef .tc main_v2) = val_main_v2 (F := F) (W (Proc.devRef .tc main_arg1)) := by
  after_results_simp <;> rfl
theorem hA1_arg1 : StableHlo.after opsA1 W (Proc.devRef .tc main_arg1) = W (Proc.devRef .tc main_arg1) := by
  after_results_simp <;> rfl

/-! ### Second piece: from a valuation that holds the first row and the self-loops -/

theorem hA2_v3 (x1 : (⟨S2x1600000, .i32⟩ : BufTy).Contents (Elt F))
    (h2 : W (Proc.devRef .tc main_v2) = val_main_v2 (F := F) x1) (h0 : W (Proc.devRef .tc main_v0) = val_main_v0 (F := F)) :
    StableHlo.after opsA2 W (Proc.devRef .tc main_v3) = val_main_v3 (F := F) x1 := by
  after_results_simp
  rw [h2, h0]
  rfl
theorem hA2_v5 : StableHlo.after opsA2 W (Proc.devRef .tc main_v5) = val_main_v5 (F := F) (W (Proc.devRef .tc main_arg1)) := by
  after_results_simp <;> rfl
theorem hA2_v0 : StableHlo.after opsA2 W (Proc.devRef .tc main_v0) = W (Proc.devRef .tc main_v0) := by
  after_results_simp <;> rfl

/-! ### Third piece: from a valuation that holds the second row, the self-loops and the sources -/

theorem hA3_v6 (x1 : (⟨S2x1600000, .i32⟩ : BufTy).Contents (Elt F))
    (h5 : W (Proc.devRef .tc main_v5) = val_main_v5 (F := F) x1) (h0 : W (Proc.devRef .tc main_v0) = val_main_v0 (F := F)) :
    StableHlo.after opsA3 W (Proc.devRef .tc main_v6) = val_main_v6 (F := F) x1 := by
  after_results_simp
  rw [h5, h0]
  rfl
theorem hA3_v12 (x1 : (⟨S2x1600000, .i32⟩ : BufTy).Contents (Elt F))
    (h5 : W (Proc.devRef .tc main_v5) = val_main_v5 (F := F) x1) (h0 : W (Proc.devRef .tc main_v0) = val_main_v0 (F := F)) :
    StableHlo.after opsA3 W (Proc.devRef .tc main_v12) = val_main_v12 (F := F) x1 := by
  after_results_simp
  rw [h5, h0]
  rfl
theorem hA3_v15 (x1 : (⟨S2x1600000, .i32⟩ : BufTy).Contents (Elt F))
    (h5 : W (Proc.devRef .tc main_v5) = val_main_v5 (F := F) x1) (h0 : W (Proc.devRef .tc main_v0) = val_main_v0 (F := F)) :
    StableHlo.after opsA3 W (Proc.devRef .tc main_v15) = val_main_v15 (F := F) x1 := by
  after_results_simp
  rw [h5, h0]
  rfl
theorem hA3_cst3 : StableHlo.after opsA3 W (Proc.devRef .tc main_cst_3) = val_main_cst_3 (F := F) := by
  after_results_simp <;> rfl
theorem hA3_v3 : StableHlo.after opsA3 W (Proc.devRef .tc main_v3) = W (Proc.devRef .tc main_v3) := by
  after_results_simp <;> rfl

/-! ### The 21 operations together -/

theorem hA0_v3 : StableHlo.after hostOps0 W (Proc.devRef .tc main_v3) = val_main_v3 (F := F) (W (Proc.devRef .tc main_arg1)) :=
  (congrFun (after_hostOps0 W) _).trans ((hA3_v3 _).trans (hA2_v3 _ _ (hA1_v2 W) (hA1_v0 W)))

/-- The second row and the self-loops, as the second piece leaves them. -/
theorem hA02_v5 : StableHlo.after opsA2 (StableHlo.after opsA1 W) (Proc.devRef .tc main_v5) = val_main_v5 (F := F) (W (Proc.devRef .tc main_arg1)) :=
  (hA2_v5 _).trans (congrArg (val_main_v5 (F := F)) (hA1_arg1 W))
theorem hA02_v0 : StableHlo.after opsA2 (StableHlo.after opsA1 W) (Proc.devRef .tc main_v0) = val_main_v0 (F := F) :=
  (hA2_v0 _).trans (hA1_v0 W)

theorem hA0_v6 : StableHlo.after hostOps0 W (Proc.devRef .tc main_v6) = val_main_v6 (F := F) (W (Proc.devRef .tc main_arg1)) :=
  (congrFun (after_hostOps0 W) _).trans (hA3_v6 _ _ (hA02_v5 W) (hA02_v0 W))
theorem hA0_v12 : StableHlo.after hostOps0 W (Proc.devRef .tc main_v12) = val_main_v12 (F := F) (W (Proc.devRef .tc main_arg1)) :=
  (congrFun (after_hostOps0 W) _).trans (hA3_v12 _ _ (hA02_v5 W) (hA02_v0 W))
theorem hA0_v15 : StableHlo.after hostOps0 W (Proc.devRef .tc main_v15) = val_main_v15 (F := F) (W (Proc.devRef .tc main_arg1)) :=
  (congrFun (after_hostOps0 W) _).trans (hA3_v15 _ _ (hA02_v5 W) (hA02_v0 W))
theorem hA0_cst3 : StableHlo.after hostOps0 W (Proc.devRef .tc main_cst_3) = val_main_cst_3 (F := F) :=
  (congrFun (after_hostOps0 W) _).trans (hA3_cst3 _)

/-! ## The normalisation `where(degree > 0, rsqrt(max(degree, 1)), 0)` -/

theorem hA4_v16 (x1 : (⟨S2x1600000, .i32⟩ : BufTy).Contents (Elt F))
    (h12 : W (Proc.devRef .tc main_v12) = val_main_v12 (F := F) x1) (h15 : W (Proc.devRef .tc main_v15) = val_main_v15 (F := F) x1)
    (hc : W (Proc.devRef .tc main_cst_3) = val_main_cst_3 (F := F)) :
    StableHlo.after hostOps0_1 W (Proc.devRef .tc main_v16) = val_main_v16 (F := F) x1 := by
  after_results_simp
  simp only [StableHlo.TRef.toBuf, StableHlo.TRef.ofBuf, cast_eq, id]
  rw [h12, h15, hc]
  rfl
theorem hA4_v3 : StableHlo.after hostOps0_1 W (Proc.devRef .tc main_v3) = W (Proc.devRef .tc main_v3) := by
  after_results_simp <;> rfl
theorem hA4_v6 : StableHlo.after hostOps0_1 W (Proc.devRef .tc main_v6) = W (Proc.devRef .tc main_v6) := by
  after_results_simp <;> rfl

/-! ## The weight of every edge: the normalisation gathered at its source times the normalisation gathered at its
    target (a negative index first wrapped around by the number of nodes) -/

theorem hA5_v31 (x1 : (⟨S2x1600000, .i32⟩ : BufTy).Contents (Elt F))
    (h3 : W (Proc.devRef .tc main_v3) = val_main_v3 (F := F) x1) (h6 : W (Proc.devRef .tc main_v6) = val_main_v6 (F := F) x1)
    (h16 : W (Proc.devRef .tc main_v16) = val_main_v16 (F := F) x1) :
    StableHlo.after hostOps0_2 W (Proc.devRef .tc main_v31) = val_main_v31 (F := F) x1 := by
  after_results_simp
  rw [h3, h6, h16]
  rfl
theorem hA5_v3 : StableHlo.after hostOps0_2 W (Proc.devRef .tc main_v3) = W (Proc.devRef .tc main_v3) := by
  after_results_simp <;> rfl
theorem hA5_v6 : StableHlo.after hostOps0_2 W (Proc.devRef .tc main_v6) = W (Proc.devRef .tc main_v6) := by
  after_results_simp <;> rfl

/-! ## The three stretches that precede the first matmul -/

/-- The buffer contents after the three stretches of host operations that precede region 0. -/
abbrev afterA : Valuation τ sig (Elt F) :=
  StableHlo.after hostOps0_2 (StableHlo.after hostOps0_1 (StableHlo.after hostOps0 W))

theorem hostA_v3 : afterA W (Proc.devRef .tc main_v3) = val_main_v3 (F := F) (W (Proc.devRef .tc main_arg1)) :=
  (hA5_v3 _).trans ((hA4_v3 _).trans (hA0_v3 W))
theorem hostA_v6 : afterA W (Proc.devRef .tc main_v6) = val_main_v6 (F := F) (W (Proc.devRef .tc main_arg1)) :=
  (hA5_v6 _).trans ((hA4_v6 _).trans (hA0_v6 W))
theorem hostA_v31 : afterA W (Proc.devRef .tc main_v31) = val_main_v31 (F := F) (W (Proc.devRef .tc main_arg1)) :=
  hA5_v31 _ _ ((hA4_v3 _).trans (hA0_v3 W)) ((hA4_v6 _).trans (hA0_v6 W))
    (hA4_v16 _ _ (hA0_v12 W) (hA0_v15 W) (hA0_cst3 W))

/-! No operation of the three stretches writes an argument of the program. -/
theorem hostA_arg0 : afterA W (Proc.devRef .tc main_arg0) = W (Proc.devRef .tc main_arg0) := by
  show StableHlo.after hostOps0_2 (StableHlo.after hostOps0_1 (StableHlo.after hostOps0 W)) _ = _
  after_results_simp <;> rfl
theorem hostA_arg2 : afterA W (Proc.devRef .tc main_arg2) = W (Proc.devRef .tc main_arg2) := by
  show StableHlo.after hostOps0_2 (StableHlo.after hostOps0_1 (StableHlo.after hostOps0 W)) _ = _
  after_results_simp <;> rfl
theorem hostA_arg3 : afterA W (Proc.devRef .tc main_arg3) = W (Proc.devRef .tc main_arg3) := by
  show StableHlo.after hostOps0_2 (StableHlo.after hostOps0_1 (StableHlo.after hostOps0 W)) _ = _
  after_results_simp <;> rfl
theorem hostA_arg4 : afterA W (Proc.devRef .tc main_arg4) = W (Proc.devRef .tc main_arg4) := by
  show StableHlo.after hostOps0_2 (StableHlo.after hostOps0_1 (StableHlo.after hostOps0 W)) _ = _
  after_results_simp <;> rfl
theorem hostA_arg5 : afterA W (Proc.devRef .tc main_arg5) = W (Proc.devRef .tc main_arg5) := by
  show StableHlo.after hostOps0_2 (StableHlo.after hostOps0_1 (StableHlo.after hostOps0 W)) _ = _
  after_results_simp <;> rfl

/-! ## The first aggregation: every edge carries the row of `x0 · x2` at its source times its weight, and the rows are
    summed at the edges' targets (a scatter-add into zeros); the bias is made a row matrix -/

theorem hostB_v45 (x0 : (⟨S100000x256, .f32⟩ : BufTy).Contents (Elt F)) (x1 : (⟨S2x1600000, .i32⟩ : BufTy).Contents (Elt F)) (x2 : (⟨S256x128, .f32⟩ : BufTy).Contents (Elt F))
    (h32 : W (Proc.devRef .tc main_v32) = val_main_v32 (F := F) x0 x2)
    (h3 : W (Proc.devRef .tc main_v3) = val_main_v3 (F := F) x1)
    (h6 : W (Proc.devRef .tc main_v6) = val_main_v6 (F := F) x1)
    (h31 : W (Proc.devRef .tc main_v31) = val_main_v31 (F := F) x1) :
    StableHlo.after hostOps1 W (Proc.devRef .tc main_v45) = val_main_v45 (F := F) x0 x1 x2 := by
  after_results_simp
  rw [h32, h3, h6, h31]
  rfl
theorem hostB_v46 :
    StableHlo.after hostOps1 W (Proc.devRef .tc main_v46) = shapeCast S1x128 (W (Proc.devRef .tc main_arg3)) shapeCasts_S128_S1x128 := by
  after_results_simp <;> rfl
theorem hostB_v3 : StableHlo.after hostOps1 W (Proc.devRef .tc main_v3) = W (Proc.devRef .tc main_v3) := by
  after_results_simp <;> rfl
theorem hostB_v6 : StableHlo.after hostOps1 W (Proc.devRef .tc main_v6) = W (Proc.devRef .tc main_v6) := by
  after_results_simp <;> rfl
theorem hostB_v31 : StableHlo.after hostOps1 W (Proc.devRef .tc main_v31) = W (Proc.devRef .tc main_v31) := by
  after_results_simp <;> rfl
theorem hostB_arg4 : StableHlo.after hostOps1 W (Proc.devRef .tc main_arg4) = W (Proc.devRef .tc main_arg4) := by
  after_results_simp <;> rfl
theorem hostB_arg5 : StableHlo.after hostOps1 W (Proc.devRef .tc main_arg5) = W (Proc.devRef .tc main_arg5) := by
  after_results_simp <;> rfl

/-! ## The second aggregation: the same over the two columns of the second layer's product -/

theorem hostC_v61 (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F))
    (h48 : W (Proc.devRef .tc main_v48) = val_main_v50 (F := F) x0 x1 x2 x3 x4)
    (h3 : W (Proc.devRef .tc main_v3) = val_main_v3 (F := F) x1)
    (h6 : W (Proc.devRef .tc main_v6) = val_main_v6 (F := F) x1)
    (h31 : W (Proc.devRef .tc main_v31) = val_main_v31 (F := F) x1) :
    StableHlo.after hostOps3 W (Proc.devRef .tc main_v61) = val_main_v63 (F := F) x0 x1 x2 x3 x4 := by
  after_results_simp
  rw [h48, h3, h6, h31]
  rfl
theorem hostC_v62 :
    StableHlo.after hostOps3 W (Proc.devRef .tc main_v62) = shapeCast S1x2 (W (Proc.devRef .tc main_arg5)) shapeCasts_S2_S1x2 := by
  after_results_simp <;> rfl

end Cert.Bridge

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Region0.lean ====
import proofs.«143986_j59459527246262_1_alg».proof.Proof.Gen.KernelIdeal.Frame
import proofs.«143986_j59459527246262_1_alg».proof.Proof.RefRead
import proofs.«143986_j59459527246262_1_alg».proof.Proof.LibTileMatmul
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.TcCoe Idealize.SL.Sem
open Cert.KernelIdeal Cert.KernelIdeal.Gen
open Cert.ReferenceIdeal.ReadP

variable (V : (c : Dev nD) → (b : Ref sig .tc) → Buf (Elt Ideal) ((c : Thread nD τ).loc b))

namespace Region0

open Idealize.ShloMosaic.ValueIdx Idealize.ShloMosaic.TileMatmul

/-- The zero offsets of a whole-buffer access, however they are spelt. -/
theorem zeroOffsets : (![0, 0] : Fin 2 → Nat) = fun _ => 0 := funext fun a => by fin_cases a <;> rfl

/-- THE BODY AT AN ENTRY. The body multiplies its 5000-row tile `x0` by the whole right operand `x1` into a zero
    accumulator (the narrowing of both operands is the identity at the extended reals). When row `p` of the tile is row `i`
    of the array `X` and column `q` of `x1` is column `q` of `B`, entry (p, q) of the result is entry (i, q) of the whole
    product `X · B`: both are the sum over the 256 contracted coordinates of the same products. -/
theorem tileProduct_apply (x0 : Vec Ideal S5000x256 .f32) (x1 : Vec Ideal S256x128 .f32)
    (X : (⟨S100000x256, .f32⟩ : BufTy).Contents (Elt Ideal)) (B : (⟨S256x128, .f32⟩ : BufTy).Contents (Elt Ideal))
    (p : Fin 5000) (q : Fin 128) (i : Fin 100000)
    (hT : ∀ k : Fin 256, x0 (ix2 p k) = X (ix2 i k)) (hB : ∀ k : Fin 256, x1 (ix2 k q) = B (ix2 k q)) :
    k0_pay1 (F := Ideal) x0 x1 (ix2 p q) = val_main_v32 (F := Ideal) X B (ix2 i q) := by
  unfold k0_pay1 val_main_v32
  exact matmul_tile_eq_dotGeneral (m := 5000) (k := 256) (n := 128) (M := 100000)
    dot_S5000x256_S256x128_S5000x128_1_0_0_1_n_n.wf
    Cert.ReferenceIdeal.dot_S100000x256_S256x128_S100000x128_1_0_0_1_n_n.wf none none _ _ X B p q i hT hB

/-- The printed index maps over the 20 grid points: the left operand's window and the result's window are at row tile
    `t`, column tile 0; the right operand's window is the whole array at every point. -/
theorem tileIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- Row `p` of the left operand's tile at point `t` is row `5000 t + p` of the array. -/
theorem leftTile_apply (c : Dev nD) (t : Fin cfg0.N) (p : Fin 5000) (k : Fin 256) (i : Fin 100000)
    (hi : i.val = t.val * 5000 + p.val) :
    (iblk0 V c 0 t : Vec Ideal S5000x256 .f32) (ix2 p k) = (V c main_arg0 : S100000x256.Idx → Elt Ideal .f32) (ix2 i k) := by
  obtain ⟨e0, e1, -⟩ := tileIndex t
  unfold iblk0
  rw [View.read_apply]
  show V c main_arg0 _ = V c main_arg0 _
  congr 1
  funext a
  apply Fin.ext
  match a with
  | ⟨0, _⟩ => show win0_0.index t 0 * 5000 + 1 * p.val = i.val; rw [e0, hi]; omega
  | ⟨1, _⟩ => show win0_0.index t 1 * 256 + 1 * k.val = k.val; rw [e1]; omega

/-- The right operand's block at every point is the whole array. -/
theorem rightTile_apply (c : Dev nD) (t : Fin cfg0.N) (k : Fin 256) (q : Fin 128) :
    (iblk0 V c 1 t : Vec Ideal S256x128 .f32) (ix2 k q) = (V c main_arg2 : S256x128.Idx → Elt Ideal .f32) (ix2 k q) := by
  obtain ⟨-, -, e2, e3, -⟩ := tileIndex t
  unfold iblk0
  rw [View.read_apply]
  show V c main_arg2 _ = V c main_arg2 _
  congr 1
  funext a
  apply Fin.ext
  match a with
  | ⟨0, _⟩ => show win0_1.index t 0 * 256 + 1 * k.val = k.val; rw [e2]; omega
  | ⟨1, _⟩ => show win0_1.index t 1 * 128 + 1 * q.val = q.val; rw [e3]; omega

/-- WHAT POINT `t` WRITES BACK is row tile `t` of the whole product. -/
theorem tileFlushed (c : Dev nD) (t : Fin cfg0.N) :
    (dat0 (F := Ideal) V c).flushed 2 t
      = ((cfg0.win 2).blk t).view.read (Elt Ideal) (val_main_v32 (F := Ideal) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x256) zeroOffsets, View.ld_unit_zero (S := S256x128) zeroOffsets]
  funext j
  obtain ⟨p, q, rfl⟩ : ∃ (p : Fin 5000) (q : Fin 128), j = ix2 p q := ⟨j 0, j 1, eq_ix2 j⟩
  obtain ⟨-, -, -, -, e4, e5, ht⟩ := tileIndex t
  have hrow : t.val * 5000 + p.val < 100000 := by have := p.isLt; omega
  show k0_pay1 (iblk0 V c 0 t) (iblk0 V c 1 t) (ix2 p q)
    = val_main_v32 (F := Ideal) (V c main_arg0) (V c main_arg2) (((cfg0.win 2).blk t).view.emb (ix2 p q))
  have hemb : ((cfg0.win 2).blk t).view.emb (ix2 p q) = ix2 (⟨t.val * 5000 + p.val, hrow⟩ : Fin 100000) q := by
    funext a
    apply Fin.ext
    match a with
    | ⟨0, _⟩ => show win0_2.index t 0 * 5000 + 1 * p.val = t.val * 5000 + p.val; rw [e4]; omega
    | ⟨1, _⟩ => show win0_2.index t 1 * 128 + 1 * q.val = q.val; rw [e5]; omega
  rw [hemb]
  exact tileProduct_apply (iblk0 V c 0 t) (iblk0 V c 1 t) (V c main_arg0) (V c main_arg2) p q ⟨_, hrow⟩
    (fun k => leftTile_apply V c t p k _ rfl) (fun k => rightTile_apply V c t k q)

/-- An index of the result array is in point `t`'s block iff each coordinate is in the block's range on its axis. -/
theorem mem_tile (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The 20 row tiles fill the array: row `r` is in the tile of point `r / 5000`. -/
theorem tiles_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_2 t, ?_⟩
  obtain ⟨-, -, -, -, e4, e5, -⟩ := tileIndex t
  rw [mem_tile]
  intro a
  match a with
  | ⟨0, _⟩ =>
    show win0_2.index t 0 * 5000 ≤ (i 0).val ∧ (i 0).val < win0_2.index t 0 * 5000 + 5000
    rw [e4, ht]; omega
  | ⟨1, _⟩ =>
    show win0_2.index t 1 * 128 ≤ (i 1).val ∧ (i 1).val < win0_2.index t 1 * 128 + 128
    rw [e5]; omega

end Region0

/-- REGION 0: after its 20 points the result array holds the whole product of the two argument arrays: every point
    writes back its row tile of that product, and the row tiles fill the array. -/
theorem region0 (c : Dev nD) :
    (dat0 (F := Ideal) V c).arrAt 2 cfg0.N = val_main_v32 (F := Ideal) (V c main_arg0) (V c main_arg2) :=
  (dat0 (F := Ideal) V c).arrAt_eq_of_cover 2 _ (fun t _ => Region0.tileFlushed V c t) Region0.tiles_cover

end Cert.Bridge

end
-- ==== Proof.Region1.lean ====
import proofs.«143986_j59459527246262_1_alg».proof.Proof.Gen.KernelIdeal.Frame
import proofs.«143986_j59459527246262_1_alg».proof.Proof.RefRead
import Idealize.ShloMosaic.Lib.Pipeline.Value
import Idealize.ShloMosaic.Lib.ValueIdx
import Idealize.ShloMosaic.Lib.ValueLayout
import Idealize.ShloMosaic.PureOps.Ideal.Laws

/-
  The bias-and-rectify region of the two-layer graph convolution.

  The region takes the aggregated features a : [100000, 128] and the bias laid as a one-row matrix b : [1, 128]
  and leaves, at every (r, j), max (a (r, j) + b (0, j)) 0. It walks the rows in ten tiles of 10000 rows; each
  tile reads its own rows of a and the whole of b, so the tiles are restrictions of ONE whole-array function, and
  the ten tiles cover every row. The reference computes the same entry with the bias broadcast from the vector.
-/

noncomputable section

namespace Cert.Bridge

open Idealize.ShloMosaic Idealize.ShloMosaic.TcCoe Idealize.SL.Sem
open Cert.KernelIdeal Cert.KernelIdeal.Gen
open Cert.ReferenceIdeal.ReadP

variable (V : (c : Dev nD) → (b : Ref sig .tc) → Buf (Elt Ideal) ((c : Thread nD τ).loc b))

namespace Region1

open Idealize.ShloMosaic.ValueIdx

/-! ## The whole-array function -/

/-- Entry (r, j) of the rectified sum: the larger of a (r, j) + b (0, j) and the zero word. -/
def biasRelu (a : S100000x128.Idx → Elt Ideal .f32) (b : S1x128.Idx → Elt Ideal .f32) : S100000x128.Idx → Elt Ideal .f32 :=
  fun i => FloatOps.maximumf (F := Ideal) (FloatOps.addf (F := Ideal) (a i) (b (ix2 (0 : Fin 1) (⟨(i 1).val, idx2_lt1 i⟩ : Fin 128))))
    (FloatOps.ofBits (F := Ideal) .f32 0x00000000#32)

theorem biasRelu_apply (a : S100000x128.Idx → Elt Ideal .f32) (b : S1x128.Idx → Elt Ideal .f32) (p : Fin 100000) (q : Fin 128) :
    biasRelu a b (ix2 p q) = FloatOps.maximumf (F := Ideal) (FloatOps.addf (F := Ideal) (a (ix2 p q)) (b (ix2 (0 : Fin 1) q))) (FloatOps.ofBits (F := Ideal) .f32 0x00000000#32) := rfl

/-! ## One tile's arithmetic at an entry -/

/-- Inside a tile the body adds to the tile's entry (p, q) the bias row's entry q (the row broadcast down the
    tile's 10000 rows; both reshapes are to the same shape) and takes the larger of that and the zero word. -/
theorem tile_apply (v0 : Vec Ideal S10000x128 .f32) (v2 : Vec Ideal S1x128 .f32) (p : Fin 10000) (q : Fin 128) :
    k1_pay1 v0 v2 (ix2 p q)
      = FloatOps.maximumf (F := Ideal) (FloatOps.addf (F := Ideal) (v0 (ix2 p q)) (v2 (ix2 (0 : Fin 1) q))) (FloatOps.ofBits (F := Ideal) .f32 0x00000000#32) := by
  unfold k1_pay1
  show FloatOps.maximumf (F := Ideal) (FloatOps.addf (F := Ideal) (shapeCast S10000x128 v0 shapeCasts_S10000x128_S10000x128 (ix2 p q))
      (broadcastTo S10000x128 (shapeCast S1x128 v2 shapeCasts_S1x128_S1x128) broadcasts_S1x128_S10000x128 (ix2 p q))) _ = _
  rw [shapeCast_self, shapeCast_self, broadcastTo_1b_ab_apply]
  rfl

/-! ## The tiles' places in the arrays -/

theorem zero_offsets : (![0, 0] : Fin 2 → Nat) = fun _ => 0 := funext fun a => by fin_cases a <;> rfl

/-- Where the ten tiles sit, decided over the grid: the input tile of a and the output tile are the same rows
    (tile number t, all 128 columns), and the bias row is the one whole block at every point. -/
theorem tile_places : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every one of the ten row tiles is SOME point's. -/
theorem tile_onto : ∀ (r : Fin 10), ∃ t : Fin cfg1.N, win1_2.index t = ![r.val, 0] :=
  (by decide +kernel : ∀ (r : Fin 10), ∃ t : Fin grid1.N, win1_2.index t = ![r.val, 0])

/-- WHAT POINT t WRITES BACK is tile t of the rectified sum of the two arrays as the region finds them: entry
    (p, q) of the tile is row (tile number × 10000 + p) of a, and the bias read is the one row of b at column q. -/
theorem written_eq (c : Dev nD) (t : Fin cfg1.N) :
    (dat1 (F := Ideal) V c).flushed 2 t
      = ((cfg1.win 2).blk t).view.read (Elt Ideal) (biasRelu (V c main_v45) (V c main_v46)) := by
  show (cfg1.win 2).cut (grid1.coords t) ((dat1 (F := Ideal) V c).after 2 t) = _
  rw [after1_2]
  unfold out1_2
  rw [View.canon_unit_zero zero_offsets]
  simp only [View.ld_unit_zero (S := S10000x128) zero_offsets, View.ld_unit_zero (S := S1x128) zero_offsets]
  obtain ⟨e0, e1, e2, e3, e4, e5⟩ := tile_places t
  funext j
  obtain ⟨p, q, rfl⟩ : ∃ (p : Fin 10000) (q : Fin 128), j = ix2 p q := ⟨j 0, j 1, eq_ix2 j⟩
  refine (tile_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) (⟨((((cfg1.win 2).blk t).view.emb (ix2 p q)) 1).val, idx2_lt1 _⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  show FloatOps.maximumf (F := Ideal) (FloatOps.addf (F := Ideal) (V c main_v45 (((cfg1.win 0).blk t).view.emb (ix2 p q)))
        (V c main_v46 (((cfg1.win 1).blk t).view.emb (ix2 (0 : Fin 1) q)))) (FloatOps.ofBits (F := Ideal) .f32 0x00000000#32)
      = FloatOps.maximumf (F := Ideal) (FloatOps.addf (F := Ideal) (V c main_v45 (((cfg1.win 2).blk t).view.emb (ix2 p q)))
        (V c main_v46 (ix2 (0 : Fin 1) (⟨((((cfg1.win 2).blk t).view.emb (ix2 p q)) 1).val, idx2_lt1 _⟩ : Fin 128)))) (FloatOps.ofBits (F := Ideal) .f32 0x00000000#32)
  rw [h0, h1]

/-- An entry of the array is in point t's tile iff each coordinate is in the tile's range on its axis. -/
theorem mem_tile (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- The ten tiles cover the array: row r is in tile r / 10000. -/
theorem tiles_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := tile_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_tile]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE ARRAY after the region: the rectified sum of the two arrays as the region finds them. -/
theorem array_eq (c : Dev nD) :
    (dat1 (F := Ideal) V c).arrAt 2 cfg1.N = biasRelu (V c main_v45) (V c main_v46) :=
  (dat1 (F := Ideal) V c).arrAt_eq_of_cover 2 (biasRelu (V c main_v45) (V c main_v46)) (fun t _ => written_eq V c t) tiles_cover

/-! ## The reference is the same function -/

/-- The reference adds the bias broadcast from the vector (first to one row, then down the rows) and takes the
    larger of the sum and a broadcast zero: at (r, j) that is max (a (r, j) + bias j) 0, and the vector reshaped to
    one row reads bias j at (0, j). -/
theorem reference_eq (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) :
    val_main_v49 (F := Ideal) x0 x1 x2 x3
      = biasRelu (val_main_v45 (F := Ideal) x0 x1 x2) (shapeCast S1x128 x3 shapeCasts_S128_S1x128) := by
  funext i
  obtain ⟨p, q, rfl⟩ : ∃ (p : Fin 100000) (q : Fin 128), i = ix2 p q := ⟨i 0, i 1, eq_ix2 i⟩
  rw [biasRelu_apply, shapeCast_a_1a_apply, val_main_v49_apply, val_main_v48_apply, val_main_v47_apply, val_main_v46_apply,
    val_main_call1_v0_apply, val_main_call1_cst_apply]
  have hb : idx_main_v46 (idx_main_v47 (ix2 p q)) = ix1 q := funext fun a => match a with | ⟨0, _⟩ => rfl
  rw [hb]

end Region1

/-- After the bias-and-rectify region the output array holds the reference's rectified sum: the region's ten row
    tiles are restrictions of one whole-array function of the aggregated features (h45) and the bias laid as a
    one-row matrix (h46), they cover every row, and that function is the reference's stage entry by entry. -/
theorem region1 (c : Dev nD) (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal))
    (h45 : V c main_v45 = val_main_v45 (F := Ideal) x0 x1 x2)
    (h46 : V c main_v46 = shapeCast S1x128 x3 shapeCasts_S128_S1x128) :
    (dat1 (F := Ideal) V c).arrAt 2 cfg1.N = val_main_v49 (F := Ideal) x0 x1 x2 x3 := by
  rw [Region1.array_eq V c, h45, h46, Region1.reference_eq]

end Cert.Bridge

end
-- ==== Proof.Region2.lean ====
import proofs.«143986_j59459527246262_1_alg».proof.Proof.Gen.KernelIdeal.Frame
import proofs.«143986_j59459527246262_1_alg».proof.Proof.RefRead
import proofs.«143986_j59459527246262_1_alg».proof.Proof.LibTileMatmul
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.TcCoe Idealize.SL.Sem
open Cert.KernelIdeal Cert.KernelIdeal.Gen
open Cert.ReferenceIdeal.ReadP

variable (V : (c : Dev nD) → (b : Ref sig .tc) → Buf (Elt Ideal) ((c : Thread nD τ).loc b))

namespace Region2

open Idealize.ShloMosaic.ValueIdx Idealize.ShloMosaic.TileMatmul

/-- The zero offsets of a whole-buffer access, however they are spelt. -/
theorem zeroOffsets : (![0, 0] : Fin 2 → Nat) = fun _ => 0 := funext fun a => by fin_cases a <;> rfl

/-- THE BODY AT AN ENTRY. The body re-reads its 5000-row tile `x0` at its own shape (an identity), then multiplies it by
    the whole right operand `x1` into a zero accumulator (the narrowing of both operands is the identity at the extended
    reals). When row `p` of the tile is row `i` of the array `X` and column `q` of `x1` is column `q` of `B`, entry (p, q)
    of the result is entry (i, q) of the whole product `X · B`: both are the sum over the 128 contracted coordinates of the
    same products. -/
theorem tileProduct_apply (x0 : Vec Ideal S5000x128 .f32) (x1 : Vec Ideal S128x2 .f32)
    (X : (⟨S100000x128, .f32⟩ : BufTy).Contents (Elt Ideal)) (B : (⟨S128x2, .f32⟩ : BufTy).Contents (Elt Ideal))
    (p : Fin 5000) (q : Fin 2) (i : Fin 100000)
    (hT : ∀ k : Fin 128, x0 (ix2 p k) = X (ix2 i k)) (hB : ∀ k : Fin 128, x1 (ix2 k q) = B (ix2 k q)) :
    k2_pay1 (F := Ideal) x0 x1 (ix2 p q)
      = Host.dotGeneral (F := Ideal) (φ₁ := .f32) (φ₂ := .f32) Cert.ReferenceIdeal.dot_S100000x128_S128x2_S100000x2_1_0_0_1_n_n none X B (ix2 i q) := by
  unfold k2_pay1
  simp only [shapeCast_self]
  exact matmul_tile_eq_dotGeneral (m := 5000) (k := 128) (n := 2) (M := 100000)
    dot_S5000x128_S128x2_S5000x2_1_0_0_1_n_n.wf
    Cert.ReferenceIdeal.dot_S100000x128_S128x2_S100000x2_1_0_0_1_n_n.wf none none _ _ X B p q i hT hB

/-- The printed index maps over the 20 grid points: the left operand's window and the result's window are at row tile
    `t`, column tile 0; the right operand's window is the whole array at every point. -/
theorem tileIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 20 :=
  (by decide +kernel : ∀ t : Fin grid2.N, _)

/-- Row `p` of the left operand's tile at point `t` is row `5000 t + p` of the array. -/
theorem leftTile_apply (c : Dev nD) (t : Fin cfg2.N) (p : Fin 5000) (k : Fin 128) (i : Fin 100000)
    (hi : i.val = t.val * 5000 + p.val) :
    (iblk2 V c 0 t : Vec Ideal S5000x128 .f32) (ix2 p k) = (V c main_v47 : S100000x128.Idx → Elt Ideal .f32) (ix2 i k) := by
  obtain ⟨e0, e1, -⟩ := tileIndex t
  unfold iblk2
  rw [View.read_apply]
  show V c main_v47 _ = V c main_v47 _
  congr 1
  funext a
  apply Fin.ext
  match a with
  | ⟨0, _⟩ => show win2_0.index t 0 * 5000 + 1 * p.val = i.val; rw [e0, hi]; omega
  | ⟨1, _⟩ => show win2_0.index t 1 * 128 + 1 * k.val = k.val; rw [e1]; omega

/-- The right operand's block at every point is the whole array. -/
theorem rightTile_apply (c : Dev nD) (t : Fin cfg2.N) (k : Fin 128) (q : Fin 2) :
    (iblk2 V c 1 t : Vec Ideal S128x2 .f32) (ix2 k q) = (V c main_arg4 : S128x2.Idx → Elt Ideal .f32) (ix2 k q) := by
  obtain ⟨-, -, e2, e3, -⟩ := tileIndex t
  unfold iblk2
  rw [View.read_apply]
  show V c main_arg4 _ = V c main_arg4 _
  congr 1
  funext a
  apply Fin.ext
  match a with
  | ⟨0, _⟩ => show win2_1.index t 0 * 128 + 1 * k.val = k.val; rw [e2]; omega
  | ⟨1, _⟩ => show win2_1.index t 1 * 2 + 1 * q.val = q.val; rw [e3]; omega

/-- WHAT POINT `t` WRITES BACK is row tile `t` of the whole product. -/
theorem tileFlushed (c : Dev nD) (t : Fin cfg2.N) :
    (dat2 (F := Ideal) V c).flushed 2 t
      = ((cfg2.win 2).blk t).view.read (Elt Ideal)
          (Host.dotGeneral (F := Ideal) (φ₁ := .f32) (φ₂ := .f32) Cert.ReferenceIdeal.dot_S100000x128_S128x2_S100000x2_1_0_0_1_n_n none
            (V c main_v47 : (⟨S100000x128, .f32⟩ : BufTy).Contents (Elt Ideal))
            (V c main_arg4 : (⟨S128x2, .f32⟩ : BufTy).Contents (Elt Ideal))) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S128x2) zeroOffsets]
  funext j
  obtain ⟨p, q, rfl⟩ : ∃ (p : Fin 5000) (q : Fin 2), j = ix2 p q := ⟨j 0, j 1, eq_ix2 j⟩
  obtain ⟨-, -, -, -, e4, e5, ht⟩ := tileIndex t
  have hrow : t.val * 5000 + p.val < 100000 := by have := p.isLt; omega
  show k2_pay1 (iblk2 V c 0 t) (iblk2 V c 1 t) (ix2 p q)
    = Host.dotGeneral (F := Ideal) (φ₁ := .f32) (φ₂ := .f32) Cert.ReferenceIdeal.dot_S100000x128_S128x2_S100000x2_1_0_0_1_n_n none
        (V c main_v47 : (⟨S100000x128, .f32⟩ : BufTy).Contents (Elt Ideal))
        (V c main_arg4 : (⟨S128x2, .f32⟩ : BufTy).Contents (Elt Ideal)) (((cfg2.win 2).blk t).view.emb (ix2 p q))
  have hemb : ((cfg2.win 2).blk t).view.emb (ix2 p q) = ix2 (⟨t.val * 5000 + p.val, hrow⟩ : Fin 100000) q := by
    funext a
    apply Fin.ext
    match a with
    | ⟨0, _⟩ => show win2_2.index t 0 * 5000 + 1 * p.val = t.val * 5000 + p.val; rw [e4]; omega
    | ⟨1, _⟩ => show win2_2.index t 1 * 2 + 1 * q.val = q.val; rw [e5]; omega
  rw [hemb]
  exact tileProduct_apply (iblk2 V c 0 t) (iblk2 V c 1 t) (V c main_v47) (V c main_arg4) p q ⟨_, hrow⟩
    (fun k => leftTile_apply V c t p k _ rfl) (fun k => rightTile_apply V c t k q)

/-- An index of the result array is in point `t`'s block iff each coordinate is in the block's range on its axis. -/
theorem mem_tile (t : Fin cfg2.N) (i : S100000x2.Idx) :
    i ∈ ((cfg2.win 2).blk t).view.set ↔ ∀ a : Fin 2, win2_2.index t a * S5000x2.size a ≤ (i a).val
      ∧ (i a).val < win2_2.index t a * S5000x2.size a + S5000x2.size a := by
  show i ∈ ((View.whole main_v48).slice (win2_2.rect t)).set ↔ _
  rw [View.set_slice_whole, Rect.mem_set_unit]
  exact Iff.rfl

/-- The 20 row tiles fill the array: row `r` is in the tile of point `r / 5000`. -/
theorem tiles_cover (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_2 t, ?_⟩
  obtain ⟨-, -, -, -, e4, e5, -⟩ := tileIndex t
  rw [mem_tile]
  intro a
  match a with
  | ⟨0, _⟩ =>
    show win2_2.index t 0 * 5000 ≤ (i 0).val ∧ (i 0).val < win2_2.index t 0 * 5000 + 5000
    rw [e4, ht]; omega
  | ⟨1, _⟩ =>
    show win2_2.index t 1 * 2 ≤ (i 1).val ∧ (i 1).val < win2_2.index t 1 * 2 + 2
    rw [e5]; omega

/-- After the region's 20 points the result array holds the whole product of the two arrays the region finds: every
    point writes back its row tile of that product, and the row tiles fill the array. -/
theorem product (c : Dev nD) :
    (dat2 (F := Ideal) V c).arrAt 2 cfg2.N
      = Host.dotGeneral (F := Ideal) (φ₁ := .f32) (φ₂ := .f32) Cert.ReferenceIdeal.dot_S100000x128_S128x2_S100000x2_1_0_0_1_n_n none
          (V c main_v47 : (⟨S100000x128, .f32⟩ : BufTy).Contents (Elt Ideal))
          (V c main_arg4 : (⟨S128x2, .f32⟩ : BufTy).Contents (Elt Ideal)) :=
  (dat2 (F := Ideal) V c).arrAt_eq_of_cover 2 _ (fun t _ => tileFlushed V c t) tiles_cover

end Region2

/-- REGION 2: when the region finds the first layer's output in its left operand's array and the second layer's weights in
    its right operand's, it leaves the second layer's product in its result array. -/
theorem region2 (c : Dev nD) (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x2, .f32⟩ : BufTy).Contents (Elt Ideal))
    (h47 : V c main_v47 = val_main_v49 (F := Ideal) x0 x1 x2 x3)
    (h4 : V c main_arg4 = x4) :
    (dat2 (F := Ideal) V c).arrAt 2 cfg2.N = val_main_v50 (F := Ideal) x0 x1 x2 x3 x4 := by
  rw [Region2.product V c, h47, h4]
  unfold val_main_v50
  rfl

end Cert.Bridge

end
-- ==== Proof.LibKeepdims.lean ====
/-
  Two layout facts every sum taken with its axis kept (a column of row sums) needs, read at an index given by
  coordinates: a vector of length `a` laid as a column `[a, 1]` reads its entry `i` at `(i, u)`, and a column `[a, 1]`
  broadcast over `b` columns reads, at `(p, c)`, the column's entry `p`. They sit beside the library's row forms
  (a vector laid as a row `[1, a]`; a row broadcast over many rows).
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.LibMaxReduce.lean ====
/-
  A maximum taken along ONE axis, at the ideal float values, is the supremum over that axis's coordinates.

  At the ideal values `maximumf` is `max` on the extended reals, so a reduction with a maximum body from
  `-∞` along one axis is, at each reduced index `j`, the least upper bound of the source's entries at
  `j` with each coordinate `k` of the reduced axis put back (`Shape.Reduces.lift j k`). Stated for the
  in-kernel vector reduction and for the host's one-operand reduce, as an `⨆` over `Fin`: a form whose
  only law a proof needs is `iSup_le_iff`.
-/
import Idealize.ShloMosaic.PureOps.Ideal.Laws
import Idealize.ShloMosaic.PureOps.Reduce

noncomputable section

namespace Idealize.ShloMosaic.Ideal

/-- The f32 pattern of `-∞` denotes the bottom of the extended reals. -/
theorem ofBits_negInf_f32 : Ideal.ofBits .f32 0xFF800000#32 = (⊥ : EReal) := by
  simp [Ideal.ofBits, Ideal.ieee]

/-- A fold of `max` from the bottom over all of `Fin n` is the supremum of the entries. -/
theorem fold_max_bot_eq_iSup {n : Nat} (f : Fin n → EReal) :
    (Finset.univ : Finset (Fin n)).fold max (⊥ : EReal) f = ⨆ k : Fin n, f k := by
  refine eq_of_forall_ge_iff fun z => ?_
  rw [Finset.fold_max_le, iSup_le_iff]
  exact ⟨fun h k => h.2 k (Finset.mem_univ k), fun h => ⟨bot_le, fun k _ => h k⟩⟩

/-- The in-kernel maximum along one axis from `-∞`, at a reduced index, is the supremum over that axis. -/
theorem multiReduction_maximumf_single_iSup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf_f32]
  exact fold_max_bot_eq_iSup _

/-- The host's one-operand reduce with a maximum body from `-∞` along one axis is the same supremum. -/
theorem hostReduce_maximumf_single_iSup {s t u : Shape} {a : Fin s.rank} (x : FVec Ideal s .f32)
    (h' : s.ReducesTo [a] t) (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (x ∘ h.lift j) = _
  rw [ofBits_negInf_f32]
  exact fold_max_bot_eq_iSup _

end Idealize.ShloMosaic.Ideal

end
-- ==== Proof.Region3.lean ====
import proofs.«143986_j59459527246262_1_alg».proof.Proof.Gen.KernelIdeal.Frame
import proofs.«143986_j59459527246262_1_alg».proof.Proof.RefRead
import proofs.«143986_j59459527246262_1_alg».proof.Proof.LibKeepdims
import proofs.«143986_j59459527246262_1_alg».proof.Proof.LibMaxReduce
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.TcCoe Idealize.SL.Sem
open Cert.KernelIdeal Cert.KernelIdeal.Gen
open Cert.ReferenceIdeal.ReadP

variable (V : (c : Dev nD) → (b : Ref sig .tc) → Buf (Elt Ideal) ((c : Thread nD τ).loc b))

/-!
  The third region adds a bias row to every row of a [100000, 2] array and takes each row's softmax, 2000 rows to
  a tile, 50 tiles. With y r j = a r j + b j and M r = max (-∞) (sup over k of y r k), entry (r, j) of the result
  is exp (y r j - M r) / ∑ k, exp (y r k - M r). A row's result reads that row and the bias row only, so the
  tiles are restrictions of one whole-array function; the reference's stages, read at an index, give the same
  expression. The maximum against -∞ and the quotient are never simplified: both sides are read down to one
  term. The one law used is 0 + s = s, where the reference's sum starts from the zero word.
-/

namespace Region3

open Idealize.ShloMosaic.ValueIdx

/-! ## The row-wise softmax, on one two-entry row -/

/-- The stabilising maximum of a two-entry row: the larger of the word of minus infinity and the row's supremum. -/
def rowMax (y : Fin 2 → EReal) : EReal :=
  max (Ideal.ofBits .f32 0xFF800000#32) (⨆ k : Fin 2, y k)

/-- Entry q of the softmax of a two-entry row y: exp (y q - M) over the sum of exp (y k - M), M the row's
    stabilising maximum. Nothing is simplified: the quotient and the maximum stand as the programs take them. -/
def rowSoftmax (y : Fin 2 → EReal) (q : Fin 2) : EReal :=
  Ideal.div (Ideal.exp (y q - rowMax y)) (∑ k : Fin 2, Ideal.exp (y k - rowMax y))

/-- The whole-array function: row r of the result is the softmax of row r of a with the one-row matrix b added. -/
def biasSoftmax (a : FVec Ideal S100000x2 .f32) (b : FVec Ideal S1x2 .f32) : FVec Ideal S100000x2 .f32 :=
  fun i => rowSoftmax (fun k => a (ix2 (i 0) k) + b (ix2 (0 : Fin 1) k)) (i 1)

theorem biasSoftmax_apply (a : FVec Ideal S100000x2 .f32) (b : FVec Ideal S1x2 .f32) (r : Fin 100000) (q : Fin 2) :
    biasSoftmax a b (ix2 r q) = rowSoftmax (fun k => a (ix2 r k) + b (ix2 (0 : Fin 1) k)) q := rfl

/-! ## The kernel's arithmetic on one tile of 2000 rows, read at an index -/

/-- The tile with the bias row added to every row. -/
def tileBiased (v0 : Vec Ideal S2000x2 .f32) (v2 : Vec Ideal S1x2 .f32) : FVec Ideal S2000x2 .f32 :=
  addf (shapeCast S2000x2 v0 shapeCasts_S2000x2_S2000x2)
    (broadcastTo S2000x2 (shapeCast S1x2 v2 shapeCasts_S1x2_S1x2) broadcasts_S1x2_S2000x2)

/-- The stabilising maximum of every row of a tile. -/
def tileMax (y : FVec Ideal S2000x2 .f32) : FVec Ideal S2000 .f32 :=
  maximumf (broadcast S2000 (Scalar.ofBits (F := Ideal) .f32 0xFF800000#32))
    (multiReduction .maximumf [1] S2000 y 0xFF800000#32 reduces_S2000x2_S2000 (.inl rfl) rfl)

/-- The exponentials of a tile's entries, each less its row's stabilising maximum. -/
def tileExp (y : FVec Ideal S2000x2 .f32) : FVec Ideal S2000x2 .f32 :=
  exp (subf y (broadcastTo S2000x2 (shapeCast S2000x1 (tileMax y) shapeCasts_S2000_S2000x1) broadcasts_S2000x1_S2000x2))

/-- The sum of every row of a tile. -/
def tileSum (e : FVec Ideal S2000x2 .f32) : FVec Ideal S2000 .f32 :=
  multiReduction .add [1] S2000 e 0x00000000#32 reduces_S2000x2_S2000 (.inl rfl) rfl

/-- The body's value is the exponentials over their row sums, the sums laid as a column and spread over both columns. -/
theorem pay_eq (v0 : Vec Ideal S2000x2 .f32) (v2 : Vec Ideal S1x2 .f32) :
    k3_pay1 (F := Ideal) v0 v2 = divf (tileExp (tileBiased v0 v2))
      (broadcastTo S2000x2 (shapeCast S2000x1 (tileSum (tileExp (tileBiased v0 v2))) shapeCasts_S2000_S2000x1) broadcasts_S2000x1_S2000x2) := rfl

/-- The biased tile at (p, q): the tile's entry plus the bias row's entry q. -/
theorem tileBiased_apply (v0 : Vec Ideal S2000x2 .f32) (v2 : Vec Ideal S1x2 .f32) (p : Fin 2000) (q : Fin 2) :
    tileBiased v0 v2 (ix2 p q) = v0 (ix2 p q) + v2 (ix2 (0 : Fin 1) q) := by
  unfold tileBiased
  rw [addf_apply, shapeCast_self, shapeCast_self]
  exact congrArg (v0 (ix2 p q) + ·) (broadcastTo_1b_ab_apply v2 broadcasts_S1x2_S2000x2 p q)

/-- Row p's stabilising maximum is taken over that row's two entries. -/
theorem tileMax_apply (y : FVec Ideal S2000x2 .f32) (p : Fin 2000) :
    tileMax y (ix1 p) = rowMax (fun k => y (ix2 p k)) := by
  unfold tileMax rowMax
  rw [maximumf_apply, broadcast_apply]
  refine congrArg (max (Ideal.ofBits .f32 0xFF800000#32) ·) ?_
  refine (Ideal.multiReduction_maximumf_single_iSup y reduces_S2000x2_S2000 (.inl rfl) rfl (ix1 p)).trans ?_
  show (⨆ k : Fin 2, y (reduces_S2000x2_S2000.lift (ix1 p) k)) = ⨆ k : Fin 2, y (ix2 p k)
  exact congrArg iSup (funext fun k => congrArg y (funext fun a => Fin.ext (by
    match a with
    | ⟨0, _⟩ => rfl
    | ⟨1, _⟩ => rfl)))

/-- The exponential at (p, q): of the entry less row p's stabilising maximum. -/
theorem tileExp_apply (y : FVec Ideal S2000x2 .f32) (p : Fin 2000) (q : Fin 2) :
    tileExp y (ix2 p q) = Ideal.exp (y (ix2 p q) - rowMax (fun k => y (ix2 p k))) := by
  unfold tileExp
  show Ideal.exp (y (ix2 p q) - broadcastTo S2000x2 (shapeCast S2000x1 (tileMax y) shapeCasts_S2000_S2000x1) broadcasts_S2000x1_S2000x2 (ix2 p q)) = _
  rw [broadcastTo_a1_ab_apply, shapeCast_a_a1_apply, tileMax_apply]

/-- Row p's sum is taken over that row's two entries. -/
theorem tileSum_apply (e : FVec Ideal S2000x2 .f32) (p : Fin 2000) :
    tileSum e (ix1 p) = ∑ k : Fin 2, e (ix2 p k) := by
  unfold tileSum
  refine (Ideal.multiReduction_add_single e 0x00000000#32 reduces_S2000x2_S2000 (.inl rfl) rfl (ix1 p)).trans ?_
  show (∑ k : Fin 2, e (reduces_S2000x2_S2000.lift (ix1 p) k)) = ∑ k : Fin 2, e (ix2 p k)
  exact Finset.sum_congr rfl fun k _ => congrArg e (funext fun a => Fin.ext (by
    match a with
    | ⟨0, _⟩ => rfl
    | ⟨1, _⟩ => rfl))

/-- THE BODY'S VALUE AT (p, q) of a tile: the softmax, at column q, of the tile's row p with the bias row added. -/
theorem pay_apply (v0 : Vec Ideal S2000x2 .f32) (v2 : Vec Ideal S1x2 .f32) (p : Fin 2000) (q : Fin 2) :
    k3_pay1 (F := Ideal) v0 v2 (ix2 p q) = rowSoftmax (fun k => v0 (ix2 p k) + v2 (ix2 (0 : Fin 1) k)) q := by
  rw [pay_eq, divf_apply, broadcastTo_a1_ab_apply, shapeCast_a_a1_apply, tileSum_apply]
  unfold rowSoftmax
  simp only [tileExp_apply, tileBiased_apply]

/-! ## The reference's stages, read at an index down to the same expression -/

section Reference

variable (x0 : (⟨S100000x256, .f32⟩ : BufTy).Contents (Elt Ideal)) (x1 : (⟨S2x1600000, .i32⟩ : BufTy).Contents (Elt Ideal))
  (x2 : (⟨S256x128, .f32⟩ : BufTy).Contents (Elt Ideal)) (x3 : (⟨S128, .f32⟩ : BufTy).Contents (Elt Ideal))
  (x4 : (⟨S128x2, .f32⟩ : BufTy).Contents (Elt Ideal)) (x5 : (⟨S2, .f32⟩ : BufTy).Contents (Elt Ideal))

/-- The biased array at (r, k): the scattered array's entry plus the bias vector's entry k, the vector read as
    the one-row matrix it is reshaped to. -/
theorem ref_biased (r : Fin 100000) (k : Fin 2) :
    val_main_v66 (F := Ideal) x0 x1 x2 x3 x4 x5 (ix2 r k)
      = val_main_v63 (F := Ideal) x0 x1 x2 x3 x4 (ix2 r k) + shapeCast S1x2 x5 shapeCasts_S2_S1x2 (ix2 (0 : Fin 1) k) := by
  rw [val_main_v66_apply, val_main_v65_apply, val_main_v64_apply, shapeCast_a_1a_apply]
  show val_main_v63 (F := Ideal) x0 x1 x2 x3 x4 (ix2 r k) + x5 _ = _
  exact congrArg (fun j => val_main_v63 (F := Ideal) x0 x1 x2 x3 x4 (ix2 r k) + x5 j) (funext fun a => Fin.ext (by
    match a with
    | ⟨0, _⟩ => rfl))

/-- Row r's maximum along the second axis, from minus infinity, is the supremum of the row's two entries. -/
theorem ref_rowSup (r : Fin 100000) :
    val_main_v67 (F := Ideal) x0 x1 x2 x3 x4 x5 (ix1 r) = ⨆ k : Fin 2, val_main_v66 (F := Ideal) x0 x1 x2 x3 x4 x5 (ix2 r k) := by
  unfold val_main_v67 val_main_cst_13
  refine (Ideal.hostReduce_maximumf_single_iSup _ _ (by decide) _ (ix1 r)).trans ?_
  exact congrArg iSup (funext fun k => congrArg (val_main_v66 (F := Ideal) x0 x1 x2 x3 x4 x5) (funext fun a => Fin.ext (by
    match a with
    | ⟨0, _⟩ => rfl
    | ⟨1, _⟩ => rfl)))

/-- Row r's stabilising maximum. -/
theorem ref_rowMax (r : Fin 100000) :
    val_main_v69 (F := Ideal) x0 x1 x2 x3 x4 x5 (ix1 r) = rowMax (fun k => val_main_v66 (F := Ideal) x0 x1 x2 x3 x4 x5 (ix2 r k)) := by
  rw [val_main_v69_apply, val_main_v68_apply, val_main_cst_14_apply, ref_rowSup]
  rfl

/-- The exponential at (r, q): of the biased entry less row r's stabilising maximum. -/
theorem ref_exp (r : Fin 100000) (q : Fin 2) :
    val_main_v73 (F := Ideal) x0 x1 x2 x3 x4 x5 (ix2 r q)
      = Ideal.exp (val_main_v66 (F := Ideal) x0 x1 x2 x3 x4 x5 (ix2 r q) - rowMax (fun k => val_main_v66 (F := Ideal) x0 x1 x2 x3 x4 x5 (ix2 r k))) := by
  rw [val_main_v73_apply, val_main_v72_apply, val_main_v71_apply, val_main_v70_apply]
  have e : idx_main_v70 (idx_main_v71 (ix2 r q)) = ix1 r := funext fun a => Fin.ext (by
    match a with
    | ⟨0, _⟩ => rfl)
  rw [e, ref_rowMax, Ideal.hostUnary_exp_def, Ideal.subf_def]

/-- Row r's sum of exponentials: the initial value is the zero word, which adds nothing. -/
theorem ref_sum (r : Fin 100000) :
    val_main_v74 (F := Ideal) x0 x1 x2 x3 x4 x5 (ix1 r) = ∑ k : Fin 2, val_main_v73 (F := Ideal) x0 x1 x2 x3 x4 x5 (ix2 r k) := by
  rw [val_main_v74_apply, val_main_cst_15_apply]
  show Ideal.ofBits .f32 0x00000000#32 + _ = _
  rw [Ideal.ofBits_zero_f32, zero_add]
  exact Finset.sum_congr rfl fun k _ => congrArg (val_main_v73 (F := Ideal) x0 x1 x2 x3 x4 x5) (funext fun a => Fin.ext (by
    match a with
    | ⟨0, _⟩ => rfl
    | ⟨1, _⟩ => rfl))

/-- THE REFERENCE'S RESULT is the row-wise softmax of the scattered array with the bias row added. -/
theorem ref_eq : val_main_v77 (F := Ideal) x0 x1 x2 x3 x4 x5
    = biasSoftmax (val_main_v63 (F := Ideal) x0 x1 x2 x3 x4) (shapeCast S1x2 x5 shapeCasts_S2_S1x2) := by
  funext i
  obtain ⟨r, q, rfl⟩ : ∃ (r : Fin 100000) (q : Fin 2), i = ix2 r q := ⟨i 0, i 1, eq_ix2 i⟩
  rw [biasSoftmax_apply, val_main_v77_apply, val_main_v76_apply, val_main_v75_apply]
  have e : idx_main_v75 (idx_main_v76 (ix2 r q)) = ix1 r := funext fun a => Fin.ext (by
    match a with
    | ⟨0, _⟩ => rfl)
  rw [e, ref_sum]
  show Ideal.div _ _ = _
  unfold rowSoftmax
  simp only [ref_exp, ref_biased]

end Reference

/-! ## From the tiles to the array -/

/-- The softmax of a row depends on the row's two entries and on the column alone. -/
theorem rowSoftmax_congr {y y' : Fin 2 → EReal} {q q' : Fin 2} (hy : ∀ k, y k = y' k) (hq : q = q') :
    rowSoftmax y q = rowSoftmax y' q' := by
  rw [funext hy, hq]

theorem origin_eq : (![0, 0] : Fin 2 → Nat) = fun _ => 0 := funext fun a => by fin_cases a <;> rfl

/-- The windows' index maps at each of the 50 points: point t reads the t-th tile of 2000 rows and writes the t-th
    tile of 2000 rows, both columns; the bias row is the whole one-row matrix at every point. -/
theorem tile_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT t WRITES BACK is tile t of the row-wise softmax of the two arrays as the region finds them: the
    tile's row p is the array's row t * 2000 + p, and a row's softmax reads that row and the bias row only. -/
theorem flushed_tile (c : Dev nD) (t : Fin cfg3.N) :
    (dat3 (F := Ideal) V c).flushed 2 t
      = ((cfg3.win 2).blk t).view.read (Elt Ideal) (biasSoftmax (V c main_v61) (V c main_v62)) := by
  show (cfg3.win 2).cut (grid3.coords t) ((dat3 (F := Ideal) V c).after 2 t) = _
  rw [after3_2]
  unfold out3_2
  rw [View.canon_unit_zero origin_eq]
  simp only [View.ld_unit_zero (S := S2000x2) origin_eq, View.ld_unit_zero (S := S1x2) origin_eq]
  obtain ⟨e0, e1, e2, e3, e4, e5⟩ := tile_index t
  funext j
  obtain ⟨p, q, rfl⟩ : ∃ (p : Fin 2000) (q : Fin 2), j = ix2 p q := ⟨j 0, j 1, eq_ix2 j⟩
  refine (pay_apply _ _ p q).trans ?_
  show rowSoftmax _ q = rowSoftmax _ ((((cfg3.win 2).blk t).view.emb (ix2 p q)) 1)
  refine rowSoftmax_congr (fun k => ?_) (Fin.ext ?_)
  · refine congrArg₂ (· + ·) ?_ ?_
    · show V c main_v61 (((cfg3.win 0).blk t).view.emb (ix2 p k)) = V c main_v61 (ix2 ((((cfg3.win 2).blk t).view.emb (ix2 p q)) 0) k)
      refine congrArg (V c main_v61) (funext fun a => Fin.ext ?_)
      match a with
      | ⟨0, _⟩ =>
        show win3_0.index t (0 : Fin 2) * 2000 + 1 * p.val = win3_2.index t (0 : Fin 2) * 2000 + 1 * p.val
        omega
      | ⟨1, _⟩ =>
        show win3_0.index t (1 : Fin 2) * 2 + 1 * k.val = k.val
        omega
    · show V c main_v62 (((cfg3.win 1).blk t).view.emb (ix2 (0 : Fin 1) k)) = V c main_v62 (ix2 (0 : Fin 1) k)
      refine congrArg (V c main_v62) (funext fun a => Fin.ext ?_)
      match a with
      | ⟨0, _⟩ =>
        show win3_1.index t (0 : Fin 2) * 1 + 1 * 0 = 0
        omega
      | ⟨1, _⟩ =>
        show win3_1.index t (1 : Fin 2) * 2 + 1 * k.val = k.val
        omega
  · show q.val = win3_2.index t (1 : Fin 2) * 2 + 1 * q.val
    omega

/-- An index of the array is in point t's tile iff each coordinate is in the tile's range on its axis. -/
theorem mem_tile (t : Fin cfg3.N) (i : S100000x2.Idx) :
    i ∈ ((cfg3.win 2).blk t).view.set ↔ ∀ a : Fin 2, win3_2.index t a * S2000x2.size a ≤ (i a).val ∧ (i a).val < win3_2.index t a * S2000x2.size a + S2000x2.size a := by
  show i ∈ ((View.whole main_v63).slice (win3_2.rect t)).set ↔ _
  rw [View.set_slice_whole, Rect.mem_set_unit]
  exact Iff.rfl

/-- EVERY ROW IS WRITTEN: row r lies in the tile of point r / 2000, which is written back. -/
theorem rows_covered (i : S100000x2.Idx) :
    ∃ t : Fin cfg3.N, (cfg3.win 2).flush t = true ∧ i ∈ ((cfg3.win 2).blk t).view.set := by
  have hi0 : (i 0).val < 100000 := (i 0).isLt
  have hi1 : (i 1).val < 2 := (i 1).isLt
  have ht : (i 0).val / 2000 < cfg3.N := by
    show (i 0).val / 2000 < 50
    omega
  obtain ⟨e0, e1, e2, e3, e4, e5⟩ := tile_index ⟨(i 0).val / 2000, ht⟩
  refine ⟨⟨(i 0).val / 2000, ht⟩, flush3_2 _, ?_⟩
  rw [mem_tile]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, ht⟩ (1 : Fin 2) * 2 ≤ (i 1).val ∧ (i 1).val < win3_2.index ⟨(i 0).val / 2000, ht⟩ (1 : Fin 2) * 2 + 2
    rw [e5]
    omega

/-- THE ARRAY after the region: the row-wise softmax of the two arrays as the region finds them. -/
theorem array_eq (c : Dev nD) :
    (dat3 (F := Ideal) V c).arrAt 2 cfg3.N = biasSoftmax (V c main_v61) (V c main_v62) :=
  (dat3 (F := Ideal) V c).arrAt_eq_of_cover 2 (biasSoftmax (V c main_v61) (V c main_v62))
    (fun t _ => flushed_tile V c t) rows_covered

end Region3

/-- Region 3 (bias and row-wise softmax): the output array after the region is the reference's result, given that
    the region finds the scattered array and the bias row in its two input arrays. -/
theorem region3 (c : Dev nD) (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x2, .f32⟩ : BufTy).Contents (Elt Ideal)) (x5 : (⟨S2, .f32⟩ : BufTy).Contents (Elt Ideal))
    (h61 : V c main_v61 = val_main_v63 (F := Ideal) x0 x1 x2 x3 x4)
    (h62 : V c main_v62 = shapeCast S1x2 x5 shapeCasts_S2_S1x2) :
    (dat3 (F := Ideal) V c).arrAt 2 cfg3.N = val_main_v77 (F := Ideal) x0 x1 x2 x3 x4 x5 := by
  rw [Region3.array_eq V c, h61, h62, Region3.ref_eq]

end Cert.Bridge

end
-- ==== Proof.KValue.lean ====
/-
  The idealized kernel's result is the reference's last stage.

  The kernel's @main is three stretches of host operations, a pipelined region (the first layer's product, row tile by row
  tile), a stretch (gather along the edges, scale by the edge norms, scatter-add into the nodes; the bias laid as a row),
  two regions (bias and relu; the second layer's product), a stretch (the second gather, scale and scatter-add) and a last
  region (bias and the row-wise softmax). The buffer contents at each boundary are followed from the launch memory to the
  return: a region's output array is one whole-array function of the arrays it is entered with, a stretch of host operations
  maps stages of the reference, read one operation at a time, to later stages, and every other buffer is carried across
  unchanged. At the last boundary the result buffer holds the reference's last stage of the six argument arrays.
-/
import proofs.«143986_j59459527246262_1_alg».proof.Proof.KRun
import proofs.«143986_j59459527246262_1_alg».proof.Proof.KHost
import proofs.«143986_j59459527246262_1_alg».proof.Proof.Region0
import proofs.«143986_j59459527246262_1_alg».proof.Proof.Region1
import proofs.«143986_j59459527246262_1_alg».proof.Proof.Region2
import proofs.«143986_j59459527246262_1_alg».proof.Proof.Region3

noncomputable section

namespace Cert.Bridge

open Idealize.ShloMosaic Idealize.ShloMosaic.TcCoe Idealize.SL.Sem
open Cert.KernelIdeal Cert.KernelIdeal.Gen
open Cert.ReferenceIdeal.ReadP

/-! ## The boundaries, one after the other

W0 is the launch memory, W3 region 0's entry (after the three stretches), W4 its exit, W5 region 1's entry, W6 its exit
and region 2's entry, W7 region 2's exit, W8 region 3's entry, W9 its exit. X0 … X5 are the argument arrays as launched.
The edge lists (main_v3 the sources, main_v6 the targets, with the self loops appended) and the edge norms (main_v31) are
computed once, before region 0, and read again by both later stretches: they are carried along. -/

section Chain
variable (m : (ℓ : Loc nD τ sig) → Buf (Elt Ideal) ℓ) (ρ : Dev nD → PrngReg) (c : Dev nD)

abbrev X0 := m ((c.tc : Thread nD τ).loc main_arg0)
abbrev X1 := m ((c.tc : Thread nD τ).loc main_arg1)
abbrev X2 := m ((c.tc : Thread nD τ).loc main_arg2)
abbrev X3 := m ((c.tc : Thread nD τ).loc main_arg3)
abbrev X4 := m ((c.tc : Thread nD τ).loc main_arg4)
abbrev X5 := m ((c.tc : Thread nD τ).loc main_arg5)

-- region 0's entry
theorem w3_v3 : W3 m ρ c (Proc.devRef .tc main_v3) = val_main_v3 (F := Ideal) (X1 m c) := hostA_v3 (W0 m ρ c)
theorem w3_v6 : W3 m ρ c (Proc.devRef .tc main_v6) = val_main_v6 (F := Ideal) (X1 m c) := hostA_v6 (W0 m ρ c)
theorem w3_v31 : W3 m ρ c (Proc.devRef .tc main_v31) = val_main_v31 (F := Ideal) (X1 m c) := hostA_v31 (W0 m ρ c)
theorem w3_arg0 : W3 m ρ c (Proc.devRef .tc main_arg0) = X0 m c := hostA_arg0 (W0 m ρ c)
theorem w3_arg2 : W3 m ρ c (Proc.devRef .tc main_arg2) = X2 m c := hostA_arg2 (W0 m ρ c)
theorem w3_arg3 : W3 m ρ c (Proc.devRef .tc main_arg3) = X3 m c := hostA_arg3 (W0 m ρ c)
theorem w3_arg4 : W3 m ρ c (Proc.devRef .tc main_arg4) = X4 m c := hostA_arg4 (W0 m ρ c)
theorem w3_arg5 : W3 m ρ c (Proc.devRef .tc main_arg5) = X5 m c := hostA_arg5 (W0 m ρ c)

-- region 0's exit
theorem w4_v32 : W4 m ρ c (Proc.devRef .tc main_v32) = val_main_v32 (F := Ideal) (X0 m c) (X2 m c) := by
  refine (W4_arr m ρ c 2).trans ((region0 (V3 m ρ) c).trans ?_)
  rw [show V3 m ρ c main_arg0 = X0 m c from w3_arg0 m ρ c, show V3 m ρ c main_arg2 = X2 m c from w3_arg2 m ρ c]
theorem w4_v3 : W4 m ρ c (Proc.devRef .tc main_v3) = val_main_v3 (F := Ideal) (X1 m c) := (W4_of_ne m ρ c main_v3 (by decide)).trans (w3_v3 m ρ c)
theorem w4_v6 : W4 m ρ c (Proc.devRef .tc main_v6) = val_main_v6 (F := Ideal) (X1 m c) := (W4_of_ne m ρ c main_v6 (by decide)).trans (w3_v6 m ρ c)
theorem w4_v31 : W4 m ρ c (Proc.devRef .tc main_v31) = val_main_v31 (F := Ideal) (X1 m c) := (W4_of_ne m ρ c main_v31 (by decide)).trans (w3_v31 m ρ c)
theorem w4_arg3 : W4 m ρ c (Proc.devRef .tc main_arg3) = X3 m c := (W4_of_ne m ρ c main_arg3 (by decide)).trans (w3_arg3 m ρ c)
theorem w4_arg4 : W4 m ρ c (Proc.devRef .tc main_arg4) = X4 m c := (W4_of_ne m ρ c main_arg4 (by decide)).trans (w3_arg4 m ρ c)
theorem w4_arg5 : W4 m ρ c (Proc.devRef .tc main_arg5) = X5 m c := (W4_of_ne m ρ c main_arg5 (by decide)).trans (w3_arg5 m ρ c)

-- region 1's entry
theorem w5_v45 : W5 m ρ c (Proc.devRef .tc main_v45) = val_main_v45 (F := Ideal) (X0 m c) (X1 m c) (X2 m c) :=
  hostB_v45 (W4 m ρ c) (X0 m c) (X1 m c) (X2 m c) (w4_v32 m ρ c) (w4_v3 m ρ c) (w4_v6 m ρ c) (w4_v31 m ρ c)
theorem w5_v46 : W5 m ρ c (Proc.devRef .tc main_v46) = shapeCast S1x128 (X3 m c) shapeCasts_S128_S1x128 :=
  (hostB_v46 (W4 m ρ c)).trans (by rw [w4_arg3 m ρ c])
theorem w5_v3 : W5 m ρ c (Proc.devRef .tc main_v3) = val_main_v3 (F := Ideal) (X1 m c) := (hostB_v3 (W4 m ρ c)).trans (w4_v3 m ρ c)
theorem w5_v6 : W5 m ρ c (Proc.devRef .tc main_v6) = val_main_v6 (F := Ideal) (X1 m c) := (hostB_v6 (W4 m ρ c)).trans (w4_v6 m ρ c)
theorem w5_v31 : W5 m ρ c (Proc.devRef .tc main_v31) = val_main_v31 (F := Ideal) (X1 m c) := (hostB_v31 (W4 m ρ c)).trans (w4_v31 m ρ c)
theorem w5_arg4 : W5 m ρ c (Proc.devRef .tc main_arg4) = X4 m c := (hostB_arg4 (W4 m ρ c)).trans (w4_arg4 m ρ c)
theorem w5_arg5 : W5 m ρ c (Proc.devRef .tc main_arg5) = X5 m c := (hostB_arg5 (W4 m ρ c)).trans (w4_arg5 m ρ c)

-- region 1's exit = region 2's entry
theorem w6_v47 : W6 m ρ c (Proc.devRef .tc main_v47) = val_main_v49 (F := Ideal) (X0 m c) (X1 m c) (X2 m c) (X3 m c) :=
  (W6_arr m ρ c 2).trans (region1 (V5 m ρ) c (X0 m c) (X1 m c) (X2 m c) (X3 m c) (w5_v45 m ρ c) (w5_v46 m ρ c))
theorem w6_v3 : W6 m ρ c (Proc.devRef .tc main_v3) = val_main_v3 (F := Ideal) (X1 m c) := (W6_of_ne m ρ c main_v3 (by decide)).trans (w5_v3 m ρ c)
theorem w6_v6 : W6 m ρ c (Proc.devRef .tc main_v6) = val_main_v6 (F := Ideal) (X1 m c) := (W6_of_ne m ρ c main_v6 (by decide)).trans (w5_v6 m ρ c)
theorem w6_v31 : W6 m ρ c (Proc.devRef .tc main_v31) = val_main_v31 (F := Ideal) (X1 m c) := (W6_of_ne m ρ c main_v31 (by decide)).trans (w5_v31 m ρ c)
theorem w6_arg4 : W6 m ρ c (Proc.devRef .tc main_arg4) = X4 m c := (W6_of_ne m ρ c main_arg4 (by decide)).trans (w5_arg4 m ρ c)
theorem w6_arg5 : W6 m ρ c (Proc.devRef .tc main_arg5) = X5 m c := (W6_of_ne m ρ c main_arg5 (by decide)).trans (w5_arg5 m ρ c)

-- region 2's exit
theorem w7_v48 : W7 m ρ c (Proc.devRef .tc main_v48) = val_main_v50 (F := Ideal) (X0 m c) (X1 m c) (X2 m c) (X3 m c) (X4 m c) :=
  (W7_arr m ρ c 2).trans (region2 (V6 m ρ) c (X0 m c) (X1 m c) (X2 m c) (X3 m c) (X4 m c) (w6_v47 m ρ c) (w6_arg4 m ρ c))
theorem w7_v3 : W7 m ρ c (Proc.devRef .tc main_v3) = val_main_v3 (F := Ideal) (X1 m c) := (W7_of_ne m ρ c main_v3 (by decide)).trans (w6_v3 m ρ c)
theorem w7_v6 : W7 m ρ c (Proc.devRef .tc main_v6) = val_main_v6 (F := Ideal) (X1 m c) := (W7_of_ne m ρ c main_v6 (by decide)).trans (w6_v6 m ρ c)
theorem w7_v31 : W7 m ρ c (Proc.devRef .tc main_v31) = val_main_v31 (F := Ideal) (X1 m c) := (W7_of_ne m ρ c main_v31 (by decide)).trans (w6_v31 m ρ c)
theorem w7_arg5 : W7 m ρ c (Proc.devRef .tc main_arg5) = X5 m c := (W7_of_ne m ρ c main_arg5 (by decide)).trans (w6_arg5 m ρ c)

-- region 3's entry
theorem w8_v61 : W8 m ρ c (Proc.devRef .tc main_v61) = val_main_v63 (F := Ideal) (X0 m c) (X1 m c) (X2 m c) (X3 m c) (X4 m c) :=
  hostC_v61 (W7 m ρ c) (X0 m c) (X1 m c) (X2 m c) (X3 m c) (X4 m c) (w7_v48 m ρ c) (w7_v3 m ρ c) (w7_v6 m ρ c) (w7_v31 m ρ c)
theorem w8_v62 : W8 m ρ c (Proc.devRef .tc main_v62) = shapeCast S1x2 (X5 m c) shapeCasts_S2_S1x2 :=
  (hostC_v62 (W7 m ρ c)).trans (by rw [w7_arg5 m ρ c])

/-- The result buffer at the last boundary is the reference's last stage of the launch memory's argument arrays. -/
theorem kernel_value : W9 m ρ c (Proc.devRef .tc main_v63)
    = val_main_v77 (F := Ideal) (X0 m c) (X1 m c) (X2 m c) (X3 m c) (X4 m c) (X5 m c) :=
  (W9_arr m ρ c 2).trans (region3 (V8 m ρ) c (X0 m c) (X1 m c) (X2 m c) (X3 m c) (X4 m c) (X5 m c) (w8_v61 m ρ c) (w8_v62 m ρ c))
end Chain

/-- The kernel's run at the ideal values: it terminates, its result is the reference's last stage of the launch memory's
    argument arrays, and the arguments end as launched. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v63) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (kernel_value m ρ c), (h c).2⟩) (run_named (F := Ideal) m ρ)

end Cert.Bridge

end
-- ==== Proof.RefValue.lean ====
import proofs.«143986_j59459527246262_1_alg».proof.Proof.RefRead
import proofs.«143986_j59459527246262_1_alg».proof.Proof.RefRun
import Idealize.ShloMosaic.Lib.StableHlo.Run
import Idealize.ShloMosaic.Lib.Pipeline.Frame

/-!
# The reference program's run, read at its stages

The reference is a straight line of one hundred tensor operations, and its run leaves every buffer at the fold of the
operations' results over the launch contents. This module evaluates that fold at the result buffer and at the six
arguments. The line is cut into nine consecutive stretches. Between two stretches the only facts carried over are
equations `U b = (the stage value of b)` for the arguments and for the few buffers `b` that a later stretch still
reads. Inside a stretch each operation is read at its operands' contents, and what it writes is by definition the next
stage value, so every equation closes by unfolding definitions. Each of the two concatenations opens a stretch: its
pieces are then contents of the incoming valuation, which the carried equations rewrite. No law of arithmetic is used
anywhere: both sides of every equation are the same operations applied to the same operands.
-/

noncomputable section

namespace Cert.RefBridge

open Idealize.ShloMosaic Idealize.ShloMosaic.TcCoe Idealize.SL.Sem Idealize.ShloMosaic.StableHlo
open Cert.ReferenceIdeal Cert.ReferenceIdeal.Gen Cert.ReferenceIdeal.ReadP

variable {F : FTy → Type} [FloatOps F]

/-- Before the first operation: the valuation holds the six arguments. -/
structure Staged0 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F)) : Prop where
  arg0 : U (Proc.devRef .tc main_arg0) = x0
  arg1 : U (Proc.devRef .tc main_arg1) = x1
  arg2 : U (Proc.devRef .tc main_arg2) = x2
  arg3 : U (Proc.devRef .tc main_arg3) = x3
  arg4 : U (Proc.devRef .tc main_arg4) = x4
  arg5 : U (Proc.devRef .tc main_arg5) = x5

/-- Operations 0 to 2 of the line. The node numbering `0, 1, …` and the first row of the edge array, flattened to a vector. -/
abbrev ops0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000 ]

/-- After operation 2: the arguments are untouched, and the buffers read later hold their stage values. -/
structure Staged1 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F)) : Prop where
  arg0 : U (Proc.devRef .tc main_arg0) = x0
  arg1 : U (Proc.devRef .tc main_arg1) = x1
  arg2 : U (Proc.devRef .tc main_arg2) = x2
  arg3 : U (Proc.devRef .tc main_arg3) = x3
  arg4 : U (Proc.devRef .tc main_arg4) = x4
  arg5 : U (Proc.devRef .tc main_arg5) = x5
  v2 : U (Proc.devRef .tc main_v2) = val_main_v2 (F := F) x1
  v0 : U (Proc.devRef .tc main_v0) = val_main_v0 (F := F)

/-- Operations 0 to 2 take the equations before them to the equations after them. -/
theorem step0 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F))
    (h : Staged0 U x0 x1 x2 x3 x4 x5) : Staged1 (after ops0 U) x0 x1 x2 x3 x4 x5 where
  arg0 := by after_results_simp; exact h.arg0
  arg1 := by after_results_simp; exact h.arg1
  arg2 := by after_results_simp; exact h.arg2
  arg3 := by after_results_simp; exact h.arg3
  arg4 := by after_results_simp; exact h.arg4
  arg5 := by after_results_simp; exact h.arg5
  v2 := by
    after_results_simp
    rw [h.arg1]
    rfl
  v0 := by
    after_results_simp
    rfl

/-- Operations 3 to 5 of the line. The first endpoint list: the first row followed by the node numbering (one extra edge from every node to itself);
    then the second row of the edge array, flattened. The concatenation opens the stretch, so its two pieces are contents
    of the incoming valuation. -/
abbrev ops1 : List (HloOp τ sig (Elt F)) :=
  [ binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000 ]

/-- After operation 5: the arguments are untouched, and the buffers read later hold their stage values. -/
structure Staged2 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F)) : Prop where
  arg0 : U (Proc.devRef .tc main_arg0) = x0
  arg1 : U (Proc.devRef .tc main_arg1) = x1
  arg2 : U (Proc.devRef .tc main_arg2) = x2
  arg3 : U (Proc.devRef .tc main_arg3) = x3
  arg4 : U (Proc.devRef .tc main_arg4) = x4
  arg5 : U (Proc.devRef .tc main_arg5) = x5
  v5 : U (Proc.devRef .tc main_v5) = val_main_v5 (F := F) x1
  v0 : U (Proc.devRef .tc main_v0) = val_main_v0 (F := F)
  v3 : U (Proc.devRef .tc main_v3) = val_main_v3 (F := F) x1

/-- Operations 3 to 5 take the equations before them to the equations after them. -/
theorem step1 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F))
    (h : Staged1 U x0 x1 x2 x3 x4 x5) : Staged2 (after ops1 U) x0 x1 x2 x3 x4 x5 where
  arg0 := by after_results_simp; exact h.arg0
  arg1 := by after_results_simp; exact h.arg1
  arg2 := by after_results_simp; exact h.arg2
  arg3 := by after_results_simp; exact h.arg3
  arg4 := by after_results_simp; exact h.arg4
  arg5 := by after_results_simp; exact h.arg5
  v5 := by
    after_results_simp
    rw [h.arg1]
    rfl
  v0 := by after_results_simp; exact h.v0
  v3 := by
    after_results_simp
    rw [h.v2, h.v0]
    rfl

/-- Operations 6 to 12 of the line. The second endpoint list (second row followed by the node numbering), and the degrees: ones added up at the second
    endpoints, starting from zero. -/
abbrev ops2 : List (HloOp τ sig (Elt F)) :=
  [ binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- After operation 12: the arguments are untouched, and the buffers read later hold their stage values. -/
structure Staged3 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F)) : Prop where
  arg0 : U (Proc.devRef .tc main_arg0) = x0
  arg1 : U (Proc.devRef .tc main_arg1) = x1
  arg2 : U (Proc.devRef .tc main_arg2) = x2
  arg3 : U (Proc.devRef .tc main_arg3) = x3
  arg4 : U (Proc.devRef .tc main_arg4) = x4
  arg5 : U (Proc.devRef .tc main_arg5) = x5
  v10 : U (Proc.devRef .tc main_v10) = val_main_v10 (F := F) x1
  v3 : U (Proc.devRef .tc main_v3) = val_main_v3 (F := F) x1
  v6 : U (Proc.devRef .tc main_v6) = val_main_v6 (F := F) x1

/-- Operations 6 to 12 take the equations before them to the equations after them. -/
theorem step2 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F))
    (h : Staged2 U x0 x1 x2 x3 x4 x5) : Staged3 (after ops2 U) x0 x1 x2 x3 x4 x5 where
  arg0 := by after_results_simp; exact h.arg0
  arg1 := by after_results_simp; exact h.arg1
  arg2 := by after_results_simp; exact h.arg2
  arg3 := by after_results_simp; exact h.arg3
  arg4 := by after_results_simp; exact h.arg4
  arg5 := by after_results_simp; exact h.arg5
  v10 := by
    after_results_simp
    rw [h.v5, h.v0]
    rfl
  v3 := by after_results_simp; exact h.v3
  v6 := by
    after_results_simp
    rw [h.v5, h.v0]
    rfl

/-- Operations 13 to 23 of the line. The inverse square roots of the degrees: `rsqrt (max d 1)` where `d > 0`, and zero elsewhere (the selection is the
    body of a called function, read in place). -/
abbrev ops3 : List (HloOp τ sig (Elt F)) :=
  [ nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- After operation 23: the arguments are untouched, and the buffers read later hold their stage values. -/
structure Staged4 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F)) : Prop where
  arg0 : U (Proc.devRef .tc main_arg0) = x0
  arg1 : U (Proc.devRef .tc main_arg1) = x1
  arg2 : U (Proc.devRef .tc main_arg2) = x2
  arg3 : U (Proc.devRef .tc main_arg3) = x3
  arg4 : U (Proc.devRef .tc main_arg4) = x4
  arg5 : U (Proc.devRef .tc main_arg5) = x5
  v3 : U (Proc.devRef .tc main_v3) = val_main_v3 (F := F) x1
  v16 : U (Proc.devRef .tc main_v16) = val_main_v16 (F := F) x1
  v6 : U (Proc.devRef .tc main_v6) = val_main_v6 (F := F) x1

/-- Operations 13 to 23 take the equations before them to the equations after them. -/
theorem step3 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F))
    (h : Staged3 U x0 x1 x2 x3 x4 x5) : Staged4 (after ops3 U) x0 x1 x2 x3 x4 x5 where
  arg0 := by after_results_simp; exact h.arg0
  arg1 := by after_results_simp; exact h.arg1
  arg2 := by after_results_simp; exact h.arg2
  arg3 := by after_results_simp; exact h.arg3
  arg4 := by after_results_simp; exact h.arg4
  arg5 := by after_results_simp; exact h.arg5
  v3 := by after_results_simp; exact h.v3
  v16 := by
    after_results_simp
    simp only [StableHlo.TRef.toBuf, StableHlo.TRef.ofBuf, cast_eq, id]
    rw [h.v10]
    rfl
  v6 := by after_results_simp; exact h.v6

/-- Operations 24 to 42 of the line. The edge weights: each endpoint list with negative entries moved up by the node count, the inverse square roots
    gathered at both lists, and their product edge by edge. -/
abbrev ops4 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- After operation 42: the arguments are untouched, and the buffers read later hold their stage values. -/
structure Staged5 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F)) : Prop where
  arg0 : U (Proc.devRef .tc main_arg0) = x0
  arg1 : U (Proc.devRef .tc main_arg1) = x1
  arg2 : U (Proc.devRef .tc main_arg2) = x2
  arg3 : U (Proc.devRef .tc main_arg3) = x3
  arg4 : U (Proc.devRef .tc main_arg4) = x4
  arg5 : U (Proc.devRef .tc main_arg5) = x5
  v3 : U (Proc.devRef .tc main_v3) = val_main_v3 (F := F) x1
  v31 : U (Proc.devRef .tc main_v31) = val_main_v31 (F := F) x1
  v6 : U (Proc.devRef .tc main_v6) = val_main_v6 (F := F) x1

/-- Operations 24 to 42 take the equations before them to the equations after them. -/
theorem step4 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F))
    (h : Staged4 U x0 x1 x2 x3 x4 x5) : Staged5 (after ops4 U) x0 x1 x2 x3 x4 x5 where
  arg0 := by after_results_simp; exact h.arg0
  arg1 := by after_results_simp; exact h.arg1
  arg2 := by after_results_simp; exact h.arg2
  arg3 := by after_results_simp; exact h.arg3
  arg4 := by after_results_simp; exact h.arg4
  arg5 := by after_results_simp; exact h.arg5
  v3 := by after_results_simp; exact h.v3
  v31 := by
    after_results_simp
    rw [h.v16, h.v3, h.v6]
    rfl
  v6 := by after_results_simp; exact h.v6

/-- Operations 43 to 59 of the line. The first layer's aggregation: the product of the features with the first weight matrix, its rows gathered at the
    first endpoints, scaled by the edge weights, and added up at the second endpoints. -/
abbrev ops5 : List (HloOp τ sig (Elt F)) :=
  [ binary main_arg0 main_arg2 main_v32 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- After operation 59: the arguments are untouched, and the buffers read later hold their stage values. -/
structure Staged6 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F)) : Prop where
  arg0 : U (Proc.devRef .tc main_arg0) = x0
  arg1 : U (Proc.devRef .tc main_arg1) = x1
  arg2 : U (Proc.devRef .tc main_arg2) = x2
  arg3 : U (Proc.devRef .tc main_arg3) = x3
  arg4 : U (Proc.devRef .tc main_arg4) = x4
  arg5 : U (Proc.devRef .tc main_arg5) = x5
  v45 : U (Proc.devRef .tc main_v45) = val_main_v45 (F := F) x0 x1 x2
  v3 : U (Proc.devRef .tc main_v3) = val_main_v3 (F := F) x1
  v31 : U (Proc.devRef .tc main_v31) = val_main_v31 (F := F) x1
  v6 : U (Proc.devRef .tc main_v6) = val_main_v6 (F := F) x1

/-- Operations 43 to 59 take the equations before them to the equations after them. -/
theorem step5 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F))
    (h : Staged5 U x0 x1 x2 x3 x4 x5) : Staged6 (after ops5 U) x0 x1 x2 x3 x4 x5 where
  arg0 := by after_results_simp; exact h.arg0
  arg1 := by after_results_simp; exact h.arg1
  arg2 := by after_results_simp; exact h.arg2
  arg3 := by after_results_simp; exact h.arg3
  arg4 := by after_results_simp; exact h.arg4
  arg5 := by after_results_simp; exact h.arg5
  v45 := by
    after_results_simp
    rw [h.v6, h.arg0, h.arg2, h.v3, h.v31]
    rfl
  v3 := by after_results_simp; exact h.v3
  v31 := by after_results_simp; exact h.v31
  v6 := by after_results_simp; exact h.v6

/-- Operations 60 to 65 of the line. The first bias added along the rows, then the maximum with zero (the body of a called function, read in place). -/
abbrev ops6 : List (HloOp τ sig (Elt F)) :=
  [ unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- After operation 65: the arguments are untouched, and the buffers read later hold their stage values. -/
structure Staged7 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F)) : Prop where
  arg0 : U (Proc.devRef .tc main_arg0) = x0
  arg1 : U (Proc.devRef .tc main_arg1) = x1
  arg2 : U (Proc.devRef .tc main_arg2) = x2
  arg3 : U (Proc.devRef .tc main_arg3) = x3
  arg4 : U (Proc.devRef .tc main_arg4) = x4
  arg5 : U (Proc.devRef .tc main_arg5) = x5
  v49 : U (Proc.devRef .tc main_v49) = val_main_v49 (F := F) x0 x1 x2 x3
  v3 : U (Proc.devRef .tc main_v3) = val_main_v3 (F := F) x1
  v31 : U (Proc.devRef .tc main_v31) = val_main_v31 (F := F) x1
  v6 : U (Proc.devRef .tc main_v6) = val_main_v6 (F := F) x1

/-- Operations 60 to 65 take the equations before them to the equations after them. -/
theorem step6 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F))
    (h : Staged6 U x0 x1 x2 x3 x4 x5) : Staged7 (after ops6 U) x0 x1 x2 x3 x4 x5 where
  arg0 := by after_results_simp; exact h.arg0
  arg1 := by after_results_simp; exact h.arg1
  arg2 := by after_results_simp; exact h.arg2
  arg3 := by after_results_simp; exact h.arg3
  arg4 := by after_results_simp; exact h.arg4
  arg5 := by after_results_simp; exact h.arg5
  v49 := by
    after_results_simp
    simp only [StableHlo.TRef.toBuf, StableHlo.TRef.ofBuf, cast_eq, id]
    rw [h.v45, h.arg3]
    rfl
  v3 := by after_results_simp; exact h.v3
  v31 := by after_results_simp; exact h.v31
  v6 := by after_results_simp; exact h.v6

/-- Operations 66 to 82 of the line. The second layer's aggregation: the product with the second weight matrix, gathered, scaled and added up exactly as
    in the first layer, two columns wide. -/
abbrev ops7 : List (HloOp τ sig (Elt F)) :=
  [ binary main_v49 main_arg4 main_v50 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x2_S1700000x1_S1700000x2_1_0_n_n_0_1_12 x i) : (⟨S100000x2, .f32⟩ : BufTy).Contents (Elt F) → (⟨S1700000x1, .i32⟩ : BufTy).Contents (Elt F) → (⟨S1700000x2, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x2 ![0, 1] bcast_S1700000x1_S1700000x2_0_1 : (⟨S1700000x1, .f32⟩ : BufTy).Contents (Elt F) → (⟨S1700000x2, .f32⟩ : BufTy).Contents (Elt F)),
    binary main_v57 main_v59 main_v60 (mulf : (⟨S1700000x2, .f32⟩ : BufTy).Contents (Elt F) → (⟨S1700000x2, .f32⟩ : BufTy).Contents (Elt F) → (⟨S1700000x2, .f32⟩ : BufTy).Contents (Elt F)),
    nullary main_cst_12 (constant S_ .f32 0x00000000#32),
    unary main_cst_12 main_v61 (broadcastInDim S100000x2 ![] bcast_S_S100000x2 : (⟨S_, .f32⟩ : BufTy).Contents (Elt F) → (⟨S100000x2, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x2_S1700000x1_S1700000x2_1_0_0_1 x i u) : (⟨S100000x2, .f32⟩ : BufTy).Contents (Elt F) → (⟨S1700000x1, .i32⟩ : BufTy).Contents (Elt F) → (⟨S1700000x2, .f32⟩ : BufTy).Contents (Elt F) → (⟨S100000x2, .f32⟩ : BufTy).Contents (Elt F)) ]

/-- After operation 82: the arguments are untouched, and the buffers read later hold their stage values. -/
structure Staged8 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F)) : Prop where
  arg0 : U (Proc.devRef .tc main_arg0) = x0
  arg1 : U (Proc.devRef .tc main_arg1) = x1
  arg2 : U (Proc.devRef .tc main_arg2) = x2
  arg3 : U (Proc.devRef .tc main_arg3) = x3
  arg4 : U (Proc.devRef .tc main_arg4) = x4
  arg5 : U (Proc.devRef .tc main_arg5) = x5
  v63 : U (Proc.devRef .tc main_v63) = val_main_v63 (F := F) x0 x1 x2 x3 x4

/-- Operations 66 to 82 take the equations before them to the equations after them. -/
theorem step7 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F))
    (h : Staged7 U x0 x1 x2 x3 x4 x5) : Staged8 (after ops7 U) x0 x1 x2 x3 x4 x5 where
  arg0 := by after_results_simp; exact h.arg0
  arg1 := by after_results_simp; exact h.arg1
  arg2 := by after_results_simp; exact h.arg2
  arg3 := by after_results_simp; exact h.arg3
  arg4 := by after_results_simp; exact h.arg4
  arg5 := by after_results_simp; exact h.arg5
  v63 := by
    after_results_simp
    rw [h.v6, h.v49, h.arg4, h.v3, h.v31]
    rfl

/-- Operations 83 to 99 of the line. The second bias, then the row-wise normalisation: the maximum along each row subtracted, the exponential, and the
    division by the row's sum. -/
abbrev ops8 : List (HloOp τ sig (Elt F)) :=
  [ unary main_arg5 main_v64 (broadcastInDim S1x2 ![1] bcast_S2_S1x2_1 : (⟨S2, .f32⟩ : BufTy).Contents (Elt F) → (⟨S1x2, .f32⟩ : BufTy).Contents (Elt F)),
    unary main_v64 main_v65 (broadcastInDim S100000x2 ![0, 1] bcast_S1x2_S100000x2_0_1 : (⟨S1x2, .f32⟩ : BufTy).Contents (Elt F) → (⟨S100000x2, .f32⟩ : BufTy).Contents (Elt F)),
    binary main_v63 main_v65 main_v66 (addf : (⟨S100000x2, .f32⟩ : BufTy).Contents (Elt F) → (⟨S100000x2, .f32⟩ : BufTy).Contents (Elt F) → (⟨S100000x2, .f32⟩ : BufTy).Contents (Elt F)),
    nullary main_cst_13 (constant S_ .f32 0xFF800000#32),
    binary main_v66 main_cst_13 main_v67 ((fun x v => Host.reduce FloatOps.maximumf x v reducesTo_S100000x2_S100000_d1 h_S_) : (⟨S100000x2, .f32⟩ : BufTy).Contents (Elt F) → (⟨S_, .f32⟩ : BufTy).Contents (Elt F) → (⟨S100000, .f32⟩ : BufTy).Contents (Elt F)),
    nullary main_cst_14 (constant S_ .f32 0xFF800000#32),
    unary main_cst_14 main_v68 (broadcastInDim S100000 ![] bcast_S_S100000 : (⟨S_, .f32⟩ : BufTy).Contents (Elt F) → (⟨S100000, .f32⟩ : BufTy).Contents (Elt F)),
    binary main_v68 main_v67 main_v69 (maximumf : (⟨S100000, .f32⟩ : BufTy).Contents (Elt F) → (⟨S100000, .f32⟩ : BufTy).Contents (Elt F) → (⟨S100000, .f32⟩ : BufTy).Contents (Elt F)),
    unary main_v69 main_v70 (broadcastInDim S100000x1 ![0] bcast_S100000_S100000x1_0 : (⟨S100000, .f32⟩ : BufTy).Contents (Elt F) → (⟨S100000x1, .f32⟩ : BufTy).Contents (Elt F)),
    unary main_v70 main_v71 (broadcastInDim S100000x2 ![0, 1] bcast_S100000x1_S100000x2_0_1 : (⟨S100000x1, .f32⟩ : BufTy).Contents (Elt F) → (⟨S100000x2, .f32⟩ : BufTy).Contents (Elt F)),
    binary main_v66 main_v71 main_v72 (subf : (⟨S100000x2, .f32⟩ : BufTy).Contents (Elt F) → (⟨S100000x2, .f32⟩ : BufTy).Contents (Elt F) → (⟨S100000x2, .f32⟩ : BufTy).Contents (Elt F)),
    unary main_v72 main_v73 (Host.exp : (⟨S100000x2, .f32⟩ : BufTy).Contents (Elt F) → (⟨S100000x2, .f32⟩ : BufTy).Contents (Elt F)),
    nullary main_cst_15 (constant S_ .f32 0x00000000#32),
    binary main_v73 main_cst_15 main_v74 ((fun x v => Host.reduceAdd x v reducesTo_S100000x2_S100000_d1 h_S_) : (⟨S100000x2, .f32⟩ : BufTy).Contents (Elt F) → (⟨S_, .f32⟩ : BufTy).Contents (Elt F) → (⟨S100000, .f32⟩ : BufTy).Contents (Elt F)),
    unary main_v74 main_v75 (broadcastInDim S100000x1 ![0] bcast_S100000_S100000x1_0 : (⟨S100000, .f32⟩ : BufTy).Contents (Elt F) → (⟨S100000x1, .f32⟩ : BufTy).Contents (Elt F)),
    unary main_v75 main_v76 (broadcastInDim S100000x2 ![0, 1] bcast_S100000x1_S100000x2_0_1 : (⟨S100000x1, .f32⟩ : BufTy).Contents (Elt F) → (⟨S100000x2, .f32⟩ : BufTy).Contents (Elt F)),
    binary main_v73 main_v76 main_v77 (Host.divf : (⟨S100000x2, .f32⟩ : BufTy).Contents (Elt F) → (⟨S100000x2, .f32⟩ : BufTy).Contents (Elt F) → (⟨S100000x2, .f32⟩ : BufTy).Contents (Elt F)) ]

/-- After operation 99: the arguments are untouched, and the buffers read later hold their stage values. -/
structure Staged9 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F)) : Prop where
  arg0 : U (Proc.devRef .tc main_arg0) = x0
  arg1 : U (Proc.devRef .tc main_arg1) = x1
  arg2 : U (Proc.devRef .tc main_arg2) = x2
  arg3 : U (Proc.devRef .tc main_arg3) = x3
  arg4 : U (Proc.devRef .tc main_arg4) = x4
  arg5 : U (Proc.devRef .tc main_arg5) = x5
  v77 : U (Proc.devRef .tc main_v77) = val_main_v77 (F := F) x0 x1 x2 x3 x4 x5

/-- Operations 83 to 99 take the equations before them to the equations after them. -/
theorem step8 (U : Valuation τ sig (Elt F)) (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x2, .f32⟩ : BufTy).Contents (Elt F)) (x5 : (⟨S2, .f32⟩ : BufTy).Contents (Elt F))
    (h : Staged8 U x0 x1 x2 x3 x4 x5) : Staged9 (after ops8 U) x0 x1 x2 x3 x4 x5 where
  arg0 := by after_results_simp; exact h.arg0
  arg1 := by after_results_simp; exact h.arg1
  arg2 := by after_results_simp; exact h.arg2
  arg3 := by after_results_simp; exact h.arg3
  arg4 := by after_results_simp; exact h.arg4
  arg5 := by after_results_simp; exact h.arg5
  v77 := by
    after_results_simp
    rw [h.v63, h.arg5]
    rfl

/-- The whole line is the nine stretches one after the other. -/
theorem ops_eq : (ValueP.ops : List (HloOp τ sig (Elt F))) = ops0 ++ ops1 ++ ops2 ++ ops3 ++ ops4 ++ ops5 ++ ops6 ++ ops7 ++ ops8 := rfl

/-- After the whole line, from any contents `U`: the result buffer holds the last stage value of `U`'s arguments,
    and the arguments are as `U` had them. -/
theorem staged_after_ops (U : Valuation τ sig (Elt F)) :
    Staged9 (after ValueP.ops U) (U (Proc.devRef .tc main_arg0)) (U (Proc.devRef .tc main_arg1)) (U (Proc.devRef .tc main_arg2)) (U (Proc.devRef .tc main_arg3)) (U (Proc.devRef .tc main_arg4)) (U (Proc.devRef .tc main_arg5)) := by
  have h0 : Staged0 U (U (Proc.devRef .tc main_arg0)) (U (Proc.devRef .tc main_arg1)) (U (Proc.devRef .tc main_arg2)) (U (Proc.devRef .tc main_arg3)) (U (Proc.devRef .tc main_arg4)) (U (Proc.devRef .tc main_arg5)) := ⟨rfl, rfl, rfl, rfl, rfl, rfl⟩
  rw [ops_eq]
  simp only [StableHlo.after_append]
  exact (step8 _ _ _ _ _ _ _ (step7 _ _ _ _ _ _ _ (step6 _ _ _ _ _ _ _ (step5 _ _ _ _ _ _ _ (step4 _ _ _ _ _ _ _ (step3 _ _ _ _ _ _ _ (step2 _ _ _ _ _ _ _ (step1 _ _ _ _ _ _ _ (step0 _ _ _ _ _ _ _ h0)))))))))

/-- On every device, from any memory with zero counters: every weakly fair execution of the reference terminates with
    its result at the last stage value of the arguments' launch contents, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have hs := staged_after_ops (F := F) (launchContents m c)
      ⟨(h c main_v77).trans hs.v77, (h c main_arg0).trans hs.arg0, (h c main_arg1).trans hs.arg1, (h c main_arg2).trans hs.arg2, (h c main_arg3).trans hs.arg3, (h c main_arg4).trans hs.arg4, (h c main_arg5).trans hs.arg5⟩)
    (run_seq ValueP.scopedRefs_eq ValueP.scopedSems_eq defs main (fun _ => ValueP.ops) ValueP.main_eq (fun _ => ValueP.ops_sub) m ρ)

end Cert.RefBridge

end
-- ==== Proof.lean ====
/-
  A two-layer graph convolution with a row-wise softmax: the Pallas kernel against the plain reference.

  Both programs compute, from node features x [100000, 256], an edge list [2, 1600000] and the two layers' weights and
  biases: the edge list with a self loop appended per node; the nodes' degrees by a scatter-add of ones; the edge norms
  dinv(source) * dinv(target) with dinv = rsqrt(max(degree, 1)) where the degree is positive and 0 elsewhere; then per
  layer the product of the features with the weights, its rows gathered along the edges' sources, scaled by the edge norms and
  scatter-added into the edges' targets, plus the bias; a relu after the first layer and a softmax along each row after the
  second. The kernel computes the two products and the two bias-and-activation steps in pipelined regions over row tiles
  (its products on operands narrowed to bf16, which at the ideal values is the identity) and everything between them by the
  same host operations as the reference. At the ideal values a row tile's product with the whole right operand is, row by
  row, the whole array's product, and the tiles' bias, relu and softmax are the whole arrays' restricted to the tile's rows;
  so the kernel's result, followed through the buffer contents at each boundary between host stretches and regions, is the
  reference's last stage of the same argument arrays (KValue.lean), which is also what the reference's own run ends at
  (RefValue.lean). Both runs are stated for every launch memory, with no hypothesis on the arguments: the two sides are the
  same function on all of the extended reals, infinities included, so the precondition is never opened.

  The three frames: the kernel's and the idealized kernel's are the generated frame proofs; the reference's is its run
  with the result dropped. The ideal pass rewrote no operation, so what it preserves is trivial.
-/
import proofs.«143986_j59459527246262_1_alg».proof.Defs
import proofs.«143986_j59459527246262_1_alg».proof.Proof.Gen.Kernel
import proofs.«143986_j59459527246262_1_alg».proof.Proof.Gen.Kernel.Frame
import proofs.«143986_j59459527246262_1_alg».proof.Proof.Gen.KernelIdeal
import proofs.«143986_j59459527246262_1_alg».proof.Proof.Gen.KernelIdeal.Frame
import proofs.«143986_j59459527246262_1_alg».proof.Proof.Gen.ReferenceIdeal
import proofs.«143986_j59459527246262_1_alg».proof.Proof.Gen.Pre_finite_inputs
import proofs.«143986_j59459527246262_1_alg».proof.Proof.KValue
import proofs.«143986_j59459527246262_1_alg».proof.Proof.RefValue
import Idealize.ShloMosaic.Adequacy
import Idealize.ShloMosaic.Init

noncomputable section

namespace Cert.Proof

open Idealize.ShloMosaic Idealize.SL.Sem
open Cert.ReferenceIdeal.ReadP (val_main_v77)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.RefBridge.ref_run (F := Ideal) m ρ)

/-- The ideal pass rewrote nothing: the idealization is the kernel's own text read at the ideal values. -/
theorem preserves : Cert.preserves_Kernel_KernelIdeal := trivial

/-- From memories that agree on the six argument arrays both programs run, and both results are the reference's last
    stage (the row-wise softmax of the second graph-convolution layer) of those arrays. -/
theorem algebraic : Cert.algebraic_KernelIdeal_ReferenceIdeal := by
  intro m ρ m' ρ' _ hagree
  refine ⟨fun c => val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.Bridge.kernel_run m ρ, ?_⟩
  refine (θ_run Cert.ReferenceIdeal.defs _ _).mono (fun _ h c => ⟨(h c).1.trans ?_, (h c).2⟩)
    (Cert.RefBridge.ref_run (F := Ideal) m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
